-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S4x4096x1024 .f32) (main_arg1 : FVec F S4x4096x1024 .f32) (main_arg2 : FVec F S1024x1024 .f32) (main_arg3 : FVec F S1024x1024 .f32) (main_arg4 : FVec F S1024x1024 .f32) (main_arg5 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x4096x1024 : Shape := ⟨3, ![4, 4096, 1024]⟩
abbrev S1024x1024 : Shape := ⟨2, ![1024, 1024]⟩
abbrev S4x1024x1024 : Shape := ⟨3, ![4, 1024, 1024]⟩
abbrev S1x256x1024 : Shape := ⟨3, ![1, 256, 1024]⟩
abbrev S1x1024x1024 : Shape := ⟨3, ![1, 1024, 1024]⟩
abbrev S256x1024 : Shape := ⟨2, ![256, 1024]⟩

abbrev nBuf : Space → Nat
  | .hbm => 13
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S4x4096x1024, .bf16⟩
  | .hbm, ⟨11, _⟩ => ⟨S4x1024x1024, .bf16⟩
  | .hbm, ⟨12, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1024x1024, .f32⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .f32⟩
  | .local _ .vmem, ⟨18, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_25 : BitVec 32 := 0#32
  let v36 : BitVec 1 := Scalar.cmpi .ne v35 c0_i32_25
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  dot_S256x1024_S1024x1024_S256x1024_1_0_0_1_n_n_wf : DotDims.WF S256x1024 S1024x1024 S256x1024 [1] [0] [0] [1] [] []
  dot_S256x1024_S256x1024_S1024x1024_0_0_1_1_n_n_wf : DotDims.WF S256x1024 S256x1024 S1024x1024 [0] [0] [1] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x4096x1024.size a
  hwx0_0 : ∀ i : grid0.Coords, EltTy.bits .f32 = 32 ∨ (Rect.block (s := S4x4096x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x4096x1024.size a
  hwx0_1 : ∀ i : grid0.Coords, EltTy.bits .f32 = 32 ∨ (Rect.block (s := S4x4096x1024) S1x256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S4x4096x1024.size a
  hwx0_6 : ∀ i : grid0.Coords, EltTy.bits .bf16 = 32 ∨ (Rect.block (s := S4x4096x1024) S1x256x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S4x1024x1024.size a
  hwx0_7 : ∀ i : grid0.Coords, EltTy.bits .bf16 = 32 ∨ (Rect.block (s := S4x1024x1024) S1x1024x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .bf16 = 32 ∨ (Rect.block (s := S4x4096x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x1024x1024.size a
  hwx1_1 : ∀ i : grid1.Coords, EltTy.bits .bf16 = 32 ∨ (Rect.block (s := S4x1024x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x4096x1024.size a
  hwx1_2 : ∀ i : grid1.Coords, EltTy.bits .f32 = 32 ∨ (Rect.block (s := S4x4096x1024) S1x1024x1024.size (cc1_transform_2 i) (hinb1_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1x256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v4_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x1024x1024 : Shape := ⟨3, ![4, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x1024x1024, .f32⟩
  | .hbm, ⟨12, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  dot_S4x4096x1024_S1024x1024_S4x4096x1024_2_0_01_1_n_n_wf : DotDims.WF S4x4096x1024 S1024x1024 S4x4096x1024 [2] [0] [0, 1] [1] [] []
  dot_S4x4096x1024_S4x4096x1024_S4x1024x1024_1_1_2_2_0_0_wf : DotDims.WF S4x4096x1024 S4x4096x1024 S4x1024x1024 [1] [1] [2] [2] [0] [0]
  dot_S4x4096x1024_S4x1024x1024_S4x4096x1024_2_1_1_2_0_0_wf : DotDims.WF S4x4096x1024 S4x1024x1024 S4x4096x1024 [2] [1] [1] [2] [0] [0]

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf
def dot_S4x4096x1024_S4x4096x1024_S4x1024x1024_1_1_2_2_0_0 : DotDims S4x4096x1024 S4x4096x1024 S4x1024x1024 where
  lhsContracting := [1]
  rhsContracting := [1]
  lhsNonContracting := [2]
  rhsNonContracting := [2]
  lhsBatch := [0]
  rhsBatch := [0]
  wf := dot_S4x4096x1024_S4x4096x1024_S4x1024x1024_1_1_2_2_0_0_wf
def dot_S4x4096x1024_S4x1024x1024_S4x4096x1024_2_1_1_2_0_0 : DotDims S4x4096x1024 S4x1024x1024 S4x4096x1024 where
  lhsContracting := [2]
  rhsContracting := [1]
  lhsNonContracting := [1]
  rhsNonContracting := [2]
  lhsBatch := [0]
  rhsBatch := [0]
  wf := dot_S4x4096x1024_S4x1024x1024_S4x4096x1024_2_1_1_2_0_0_wf

class Facts : Prop extends Facts₀ where

variable [Facts]
-- ==== Proof.K.Region0Base.lean ====
/-
  Region 0 (the key-value kernel), what its three control cases share.

  The grid is 4 batches by 16 row tiles, walked batch by batch; point t has tile number t mod 16. The body
  branches twice on the tile number: the first tile of a batch (t mod 16 = 0) first sets the accumulator to zero,
  and the last tile (t mod 16 = 15) also writes the rounded accumulator into the key-value output block. So
  there are three cases: first tile, middle tile, last tile. The key-value output window is idle — nothing stored,
  nothing written back — at every point but the last tile of a batch.
-/
import proofs.«173808_j83949430767982_2_alg».proof.Proof.Gen.Kernel.Launch
import proofs.«173808_j83949430767982_2_alg».proof.Proof.Gen.Kernel.Skeleton
import proofs.«173808_j83949430767982_2_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The arrays as the region finds them, per core: a parameter.
variable (V : (c : Dev nD) → (b : Ref sig .tc) → Buf (Elt F) ((c : Thread nD τ).loc b))

/-! ## The two branch conditions, decided over the grid -/

/-- "This is the first tile of its batch", as the body computes it from the second grid coordinate. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last tile of its batch". -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Off the last tile the key-value output is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- On the last tile it is live. -/
theorem liveAt0_7 : ∀ t : Fin cfg0.N, cond0_1 (grid0.coords t) → cfg0.idle 7 (grid0.coords t) = false := by decide +kernel

/-! ## The staging and scratch memrefs -/

abbrev VO0_6 : View sig .tc .vmem S1x256x1024 .bf16 := (Memref.whole cc0_stg6_0 : Memref sig .tc .vmem S1x256x1024 .bf16).view
abbrev VO0_7 : View sig .tc .vmem S1x1024x1024 .bf16 := (Memref.whole cc0_stg7_0 : Memref sig .tc .vmem S1x1024x1024 .bf16).view
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1024 .bf16 := win0_7.stage (cfg0.slots t 7)
abbrev hs0_7 (t : Fin cfg0.N) : (ms0_7 t).IsWhole := hstage0_7 ((cfg0.slots t 7).cast nbuf0_7)
/-- The accumulator: a whole scoped buffer of the kernel's own, carried from one point to the next. -/
abbrev scM0_0 : Memref sig .tc .vmem S1024x1024 .f32 := Memref.whole cc0_scratch0
abbrev VS0_0 : View sig .tc .vmem S1024x1024 .f32 := scM0_0.view

/-- The scoped buffers region 0 neither stages nor touches (the second region's staging buffers), each whole at
    some contents: they ride through the region inside its invariant. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the accumulator named: the scratch at some contents, the bystanders, the generator register at some state. -/
theorem PhiA0_eq (c : Dev nD) :
    (Pipeline.ΦA spec0 c : sProp 𝕄)
      = iprop(iprop((∃ d, owns (c : Thread nD τ) scM0_0 fullShare d) ∗ other0 c) ∗ (∃ r, prngReg c r)) := by
  unfold Pipeline.ΦA other0; rw [scopedRest0_eq]; simp only [scM0_0, owns_whole]; try rfl

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Cert.Kernel.Hand

end
-- ==== Proof.K.Run0A.lean ====
/-
  Region 0, the first tile of a batch: the accumulator, found at anything, is set to zero and then receives this tile's key-value product; the gate block is stored; the key-value output is left as found.
  The body's triple on any whole staging memrefs, with the pieces each written buffer ends with as the witness
  the symbolic run finds.
-/
import proofs.«173808_j83949430767982_2_alg».proof.Proof.K.Region0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case: the inputs' buffers at their contents come back as they were; the gate output's buffer,
    found at anything, ends with the pieces L6 written; the key-value output's buffer is handed back untouched;
    the accumulator ends with the pieces LS0 written. -/
noncomputable def kernelRun0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 x3 x4 x5 : Vec F S1024x1024 .bf16) :
    Σ' (L6 : List (View.Piece (Elt F) S1x256x1024 .bf16)), { LS0 : List (View.Piece (Elt F) S1024x1024 .f32) //
      ∀ (xi7 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc0__kv_kernel_eq_skeleton]; unfold cc0__kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

end Cert.Kernel.Hand

end
-- ==== Proof.K.Run0B.lean ====
/-
  Region 0, a middle tile: the accumulator found at what the tile before left receives this tile's product; the gate block is stored; the key-value output is left as found.
  The body's triple on any whole staging memrefs, with the pieces each written buffer ends with as the witness
  the symbolic run finds.
-/
import proofs.«173808_j83949430767982_2_alg».proof.Proof.K.Region0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case: the inputs' buffers at their contents come back as they were; the gate output's buffer,
    found at anything, ends with the pieces L6 written; the key-value output's buffer is handed back untouched;
    the accumulator ends with the pieces LS0 written. -/
noncomputable def kernelRun0_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 x3 x4 x5 : Vec F S1024x1024 .bf16) (xs0 : Vec F S1024x1024 .f32) :
    Σ' (L6 : List (View.Piece (Elt F) S1x256x1024 .bf16)), { LS0 : List (View.Piece (Elt F) S1024x1024 .f32) //
      ∀ (xi7 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc0__kv_kernel_eq_skeleton]; unfold cc0__kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

end Cert.Kernel.Hand

end
-- ==== Proof.K.Run0C.lean ====
/-
  Region 0, the last tile of a batch: the accumulator found at what the tile before left receives this tile's product, and its rounding is stored into the key-value output block; the gate block is stored.
  The body's triple on any whole staging memrefs, with the pieces each written buffer ends with as the witness
  the symbolic run finds.
-/
import proofs.«173808_j83949430767982_2_alg».proof.Proof.K.Region0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case: the inputs' buffers at their contents come back as they were; the gate output's buffer,
    found at anything, ends with the pieces L6 written; the key-value output's, found at anything, with the pieces L7 written;
    the accumulator ends with the pieces LS0 written. -/
noncomputable def kernelRun0_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) :
    Σ' (L6 : List (View.Piece (Elt F) S1x256x1024 .bf16)) (L7 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__kv_kernel_eq_skeleton]; unfold cc0__kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.Kernel.Hand

end
-- ==== Proof.K.Region0.lean ====
/-
  Region 0 (the key-value kernel): what its outputs and its accumulator hold after each grid point, its proof data,
  and the body obligation.

  After point t the gate output's staging buffer holds the gate block of that tile; the accumulator holds, on the
  first tile of a batch, zero plus that tile's key-value product, and on a later tile what the tile before left
  plus this tile's product; on the last tile the key-value output's buffer holds the rounded accumulator. The
  accumulator is a scratch buffer carried from one point to the next, so the region invariant before point n + 1
  names its contents after point n.
-/
import proofs.«173808_j83949430767982_2_alg».proof.Proof.K.Run0A
import proofs.«173808_j83949430767982_2_alg».proof.Proof.K.Run0B
import proofs.«173808_j83949430767982_2_alg».proof.Proof.K.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The arrays as the region finds them, per core: a parameter.
variable (V : (c : Dev nD) → (b : Ref sig .tc) → Buf (Elt F) ((c : Thread nD τ).loc b))

/-! ## What each case leaves -/

/-- The pieces this case stores into the gate output tile it: one store of the whole block. -/
theorem cover0_A_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 x3 x4 x5 : Vec F S1024x1024 .bf16) (y : S1x256x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S1x256x1024.size (by sl_kernel_rfl) y

/-- What this case leaves in the gate output's staging buffer: its pieces read back. -/
def out0_A_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 x3 x4 x5 : Vec F S1024x1024 .bf16) : Vec F S1x256x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- The pieces this case stores into the accumulator cover it. -/
theorem scover0_A_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 x3 x4 x5 : Vec F S1024x1024 .bf16) (y : S1024x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S1024x1024.size (by sl_kernel_rfl) y

/-- What this case leaves in the accumulator. -/
def sout0_A_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 x3 x4 x5 : Vec F S1024x1024 .bf16) : Vec F S1024x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.1)

/-- The pieces this case stores into the gate output tile it: one store of the whole block. -/
theorem cover0_B_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 x3 x4 x5 : Vec F S1024x1024 .bf16) (xs0 : Vec F S1024x1024 .f32) (y : S1x256x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0).1 S1x256x1024.size (by sl_kernel_rfl) y

/-- What this case leaves in the gate output's staging buffer: its pieces read back. -/
def out0_B_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 x3 x4 x5 : Vec F S1024x1024 .bf16) (xs0 : Vec F S1024x1024 .f32) : Vec F S1x256x1024 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0).1)

/-- The pieces this case stores into the accumulator cover it. -/
theorem scover0_B_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 x3 x4 x5 : Vec F S1024x1024 .bf16) (xs0 : Vec F S1024x1024 .f32) (y : S1024x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0).2.1 S1024x1024.size (by sl_kernel_rfl) y

/-- What this case leaves in the accumulator. -/
def sout0_B_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 x3 x4 x5 : Vec F S1024x1024 .bf16) (xs0 : Vec F S1024x1024 .f32) : Vec F S1024x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0).2.1)

/-- The pieces this case stores into the gate output tile it: one store of the whole block. -/
theorem cover0_C_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) (y : S1x256x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).1 S1x256x1024.size (by sl_kernel_rfl) y

/-- What this case leaves in the gate output's staging buffer: its pieces read back. -/
def out0_C_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) : Vec F S1x256x1024 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0).1)

/-- The pieces this case stores into the accumulator cover it. -/
theorem scover0_C_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) (y : S1024x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).2.2.1 S1024x1024.size (by sl_kernel_rfl) y

/-- What this case leaves in the accumulator. -/
def sout0_C_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) : Vec F S1024x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0).2.2.1)

/-- On the last tile the one store into the key-value output covers its block. -/
theorem cover0_C_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) (y : S1x1024x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).2.1 S1x1024x1024.size (by sl_kernel_rfl) y

/-- What the last tile leaves in the key-value output's staging buffer. -/
def out0_C_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) : Vec F S1x1024x1024 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xs0).2.1)

/-- Off the last tile nothing is stored into the key-value output and nothing consults its contents: a placeholder. -/
def idle0_7 : Vec F S1x1024x1024 .bf16 := VO0_7.read (Elt F) VO0_7.junk

/-! ## Point by point -/

/-- What the gate output's buffer, the key-value output's buffer and the accumulator hold after the body at position n. -/
def outsAt0 (c : Dev nD) : (n : ℕ) → n < cfg0.N → Vec F S1x256x1024 .bf16 × Vec F S1x1024x1024 .bf16 × Vec F S1024x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), idle0_7, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 16 = 0 then
      if h1 : (n + 1) % 16 = 15 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), idle0_7, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, idle0_7, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)

theorem outsAt0_A (c : Dev nD) (t : Fin cfg0.N) (h0 : t.val % 16 = 0) (h1 : ¬t.val % 16 = 15) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), idle0_7, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, idle0_7, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator named from the second point on -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ other0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ other0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ other0 c) ∗ (∃ r, prngReg c r)) := by
  cases n with
  | zero => exact absurd rfl hz
  | succ n => rfl

/-! ## The proof data -/

/-- Region 0's proof data on core c: the arrays as the region finds them; after the body each input's buffer at
    its block, the outputs' at what the recursion says; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the closed forms of the two conditions say which case the point is in; the inputs'
    buffers hold their blocks; the invariant hands over the accumulator at what the point before left (at anything
    before the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 16 = 0
  · have h1 : ¬t.val % 16 = 15 := by omega
    rw [Dat.leavesExact_idle (dat0 V c) 7 t (idleAt0_7 t (fun h => h1 ((hcond0_1 t).mp h))) (noFlush0_7 t (fun h => h1 ((hcond0_1 t).mp h)))]
    rw [outsAt0_A V c t h0 h1]
    unfold out0_A_6 sout0_A_0; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      iexists _; iexact H7
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexists _; iexact HS0
      iintro ⟨H0, H1, H2, H3, H4, H5, ⟨%e6, H6⟩, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      iexists _; iexact H7
  · have hz : t.val ≠ 0 := fun h => h0 (by rw [h])
    by_cases h1 : t.val % 16 = 15
    · rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold out0_C_6 out0_C_7 sout0_C_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      rw [outsAt0_B V c t h0 h1]
      unfold out0_B_6 sout0_B_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _)
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.K.Region1.lean ====
import proofs.«173808_j83949430767982_2_alg».proof.Proof.Gen.Kernel.Launch
import proofs.«173808_j83949430767982_2_alg».proof.Proof.Gen.Kernel.Skeleton
import proofs.«173808_j83949430767982_2_alg».proof.Proof.Gen.Kernel.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

/-!
# The second pipeline (the product of the query block with the key-value block), one grid point at a time

The body reads two blocks of shape [1,1024,1024], multiplies them as matrices into a zero accumulator, and
writes the product over the whole output block.  This module states, for arrays V given as a parameter,
what each window's staging buffer holds before and after the body at every grid point, and proves that the
body meets that description.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the pipeline finds them on entry
variable (V : (c : Dev nD) → (b : Ref sig .tc) → Buf (Elt F) ((c : Thread nD τ).loc b))

/-! ## The windows' blocks -/

/-- The block of window w at grid point t, read off the window's array as found on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point: it is fetched at every point, and
    any proof data whose array is the entry array and whose body leaves the block in place has it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key-value window's block index depends on the batch coordinate only, so it is fetched only where
    that coordinate moves; where it is not fetched the index has not moved and the body left the block in
    place, so the staging buffer still holds the block of the current point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The rectangle of every access of the body: the whole block, from offset zero. -/
abbrev r1_0 : Rect S1x1024x1024 := Rect.unit (s := S1x1024x1024) ![0, 0, 0] S1x1024x1024.size inb_S1x1024x1024_S1x1024x1024_0_0_0

/-- Its offsets are all zero. -/
theorem zero_off3 : (![0, 0, 0] : Fin S1x1024x1024.rank → ℕ) = fun _ => 0 := by
  funext a; fin_cases a <;> rfl

/-! ## What the body leaves in the output window's buffer -/

/-- The output block after the body, from the two input blocks: the one store's payload laid over the
    block through the whole-block rectangle. -/
def out1_2 (x0 x1 : Vec F S1x1024x1024 .bf16) : Vec F S1x1024x1024 .f32 :=
  View.canon [⟨r1_0, k1_pay1 (View.ld x0 r1_0) (View.ld x1 r1_0)⟩]

/-- The store's rectangle is the whole block. -/
theorem cover1_2 (p0 : Vec F S1x1024x1024 .f32) (y : S1x1024x1024.Idx) :
    ∃ pc ∈ ([⟨r1_0, p0⟩] : List (View.Piece (Elt F) S1x1024x1024 .f32)), y ∈ pc.1.set :=
  ⟨_, List.mem_singleton_self _, View.mem_set_unit_zero zero_off3 inb_S1x1024x1024_S1x1024x1024_0_0_0 y⟩

/-- One store over the whole block leaves its payload, and a load through the whole-block rectangle reads
    the block itself: the output block is the payload of the two input blocks. -/
theorem out1_2_eq (x0 x1 : Vec F S1x1024x1024 .bf16) : out1_2 x0 x1 = k1_pay1 x0 x1 := by
  unfold out1_2 r1_0
  rw [View.canon_unit_zero zero_off3]
  simp only [View.ld_unit_zero (S := S1x1024x1024) zero_off3]

/-! ## The body's triple -/

set_option maxHeartbeats 1000000 in
/-- The body on whole staging buffers, the two inputs at contents x0 and x1 and the output at anything,
    runs to a continuation that finds the inputs unchanged and the output at the product block of x0 and
    x1: its two input loads read x0 and x1, its load of the output is not used, and its one store writes
    the payload over the whole output block. -/
theorem sound_kernel1 (c : Dev nD) (E : Set ℕ) (i : grid1.Coords)
    (arg0 : Memref sig .tc .vmem S1x1024x1024 .bf16) (harg0 : arg0.IsWhole)
    (arg1 : Memref sig .tc .vmem S1x1024x1024 .bf16) (harg1 : arg1.IsWhole)
    (arg2 : Memref sig .tc .vmem S1x1024x1024 .f32) (harg2 : arg2.IsWhole)
    (x0 x1 : Vec F S1x1024x1024 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__out_kernel i arg0 harg0 arg1 harg1 arg2 harg2) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second pipeline on core c: the arrays as found on entry; after the body at
    point t each input's buffer still at its block and the output's at the product block of the two input
    blocks; the invariant that of a body touching nothing but its staging buffers; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry arrays. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The whole program as three segments — the host stretch that rounds the four weight matrices, the key-value
  region, the output region — and its run: every weakly fair execution terminates without a fault, and every
  unscoped buffer ends at the contents the segments compose to. The arguments are among those buffers and no
  segment writes them; the result is the output region's array.
-/
import proofs.«173808_j83949430767982_2_alg».proof.Proof.K.Region0
import proofs.«173808_j83949430767982_2_alg».proof.Proof.K.Region1
import Idealize.ShloMosaic.Lib.Pipeline.Kit
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m (c, b)
/-- After the host stretch (the key-value region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the key-value region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the output region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- The core's generator register at some state and its debts, none. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The key-value region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    have h := hout0 (V1 m) c
    unfold Pipeline.ΦA at h
    rw [Pipeline.ownSems0_none, show (pdats m 0 c).Φ (Fin.last _) = (dat0 (V1 m) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region: entered from every unscoped buffer at W2, left at W3. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

/-- The buffers the host stretch writes: the four rounded weight matrices. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_⟩ <;>
    (simp only [StableHlo.unary_writes, Finset.singleton_subset_iff, List.mem_toFinset]; exact List.mem_map_of_mem (by decide))

/-- A buffer the host stretch does not write holds its launch contents when the first region is entered. -/
theorem W1_of_not_written (c : Dev nD) (b : Ref sig .tc) (hb : b ∉ (hostOps0_W : List (Ref sig .tc))) :
    W1 m c (Proc.devRef .tc b) = m ((c : Thread nD τ).loc b) :=
  StableHlo.after_of_writes_sub hostOps0 _ hostOps0_writes hb

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of_not_written m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = m ((c : Thread nD τ).loc main_arg1) := W1_of_not_written m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of_not_written m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of_not_written m c main_arg3 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := W1_of_not_written m c main_arg4 (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := W1_of_not_written m c main_arg5 (by decide)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c)⟩) (run_all m ρ)

end Cert.Kernel.Hand

end
-- ==== Proof.KI.Region0Base.lean ====
/-
  Region 0 (the key-value kernel), what its three control cases share.

  The grid is 4 batches by 16 row tiles, walked batch by batch; point t has tile number t mod 16. The body
  branches twice on the tile number: the first tile of a batch (t mod 16 = 0) first sets the accumulator to zero,
  and the last tile (t mod 16 = 15) also writes the rounded accumulator into the key-value output block. So
  there are three cases: first tile, middle tile, last tile. The key-value output window is idle — nothing stored,
  nothing written back — at every point but the last tile of a batch.
-/
import proofs.«173808_j83949430767982_2_alg».proof.Proof.Gen.KernelIdeal.Launch
import proofs.«173808_j83949430767982_2_alg».proof.Proof.Gen.KernelIdeal.Skeleton
import proofs.«173808_j83949430767982_2_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The arrays as the region finds them, per core: a parameter.
variable (V : (c : Dev nD) → (b : Ref sig .tc) → Buf (Elt F) ((c : Thread nD τ).loc b))

/-! ## The two branch conditions, decided over the grid -/

/-- "This is the first tile of its batch", as the body computes it from the second grid coordinate. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last tile of its batch". -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Off the last tile the key-value output is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- On the last tile it is live. -/
theorem liveAt0_7 : ∀ t : Fin cfg0.N, cond0_1 (grid0.coords t) → cfg0.idle 7 (grid0.coords t) = false := by decide +kernel

/-! ## The staging and scratch memrefs -/

abbrev VO0_6 : View sig .tc .vmem S1x256x1024 .bf16 := (Memref.whole cc0_stg6_0 : Memref sig .tc .vmem S1x256x1024 .bf16).view
abbrev VO0_7 : View sig .tc .vmem S1x1024x1024 .bf16 := (Memref.whole cc0_stg7_0 : Memref sig .tc .vmem S1x1024x1024 .bf16).view
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1024 .bf16 := win0_7.stage (cfg0.slots t 7)
abbrev hs0_7 (t : Fin cfg0.N) : (ms0_7 t).IsWhole := hstage0_7 ((cfg0.slots t 7).cast nbuf0_7)
/-- The accumulator: a whole scoped buffer of the kernel's own, carried from one point to the next. -/
abbrev scM0_0 : Memref sig .tc .vmem S1024x1024 .f32 := Memref.whole cc0_scratch0
abbrev VS0_0 : View sig .tc .vmem S1024x1024 .f32 := scM0_0.view

/-- The scoped buffers region 0 neither stages nor touches (the second region's staging buffers), each whole at
    some contents: they ride through the region inside its invariant. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the accumulator named: the scratch at some contents, the bystanders, the generator register at some state. -/
theorem PhiA0_eq (c : Dev nD) :
    (Pipeline.ΦA spec0 c : sProp 𝕄)
      = iprop(iprop((∃ d, owns (c : Thread nD τ) scM0_0 fullShare d) ∗ other0 c) ∗ (∃ r, prngReg c r)) := by
  unfold Pipeline.ΦA other0; rw [scopedRest0_eq]; simp only [scM0_0, owns_whole]; try rfl

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Hand

end
-- ==== Proof.KI.Run0A.lean ====
/-
  Region 0, the first tile of a batch: the accumulator, found at anything, is set to zero and then receives this tile's key-value product; the gate block is stored; the key-value output is left as found.
  The body's triple on any whole staging memrefs, with the pieces each written buffer ends with as the witness
  the symbolic run finds.
-/
import proofs.«173808_j83949430767982_2_alg».proof.Proof.KI.Region0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case: the inputs' buffers at their contents come back as they were; the gate output's buffer,
    found at anything, ends with the pieces L6 written; the key-value output's buffer is handed back untouched;
    the accumulator ends with the pieces LS0 written. -/
noncomputable def kernelRun0_A (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 x3 x4 x5 : Vec F S1024x1024 .bf16) :
    Σ' (L6 : List (View.Piece (Elt F) S1x256x1024 .bf16)), { LS0 : List (View.Piece (Elt F) S1024x1024 .f32) //
      ∀ (xi7 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc0__kv_kernel_eq_skeleton]; unfold cc0__kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

end Cert.KernelIdeal.Hand

end
-- ==== Proof.KI.Run0B.lean ====
/-
  Region 0, a middle tile: the accumulator found at what the tile before left receives this tile's product; the gate block is stored; the key-value output is left as found.
  The body's triple on any whole staging memrefs, with the pieces each written buffer ends with as the witness
  the symbolic run finds.
-/
import proofs.«173808_j83949430767982_2_alg».proof.Proof.KI.Region0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case: the inputs' buffers at their contents come back as they were; the gate output's buffer,
    found at anything, ends with the pieces L6 written; the key-value output's buffer is handed back untouched;
    the accumulator ends with the pieces LS0 written. -/
noncomputable def kernelRun0_B (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 x3 x4 x5 : Vec F S1024x1024 .bf16) (xs0 : Vec F S1024x1024 .f32) :
    Σ' (L6 : List (View.Piece (Elt F) S1x256x1024 .bf16)), { LS0 : List (View.Piece (Elt F) S1024x1024 .f32) //
      ∀ (xi7 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8 arg9 harg9 arg10 harg10) K } := by
  refine ⟨?_, ?_, fun xi7 E K => ?run⟩
  case run =>
    simp only [cc0__kv_kernel_eq_skeleton]; unfold cc0__kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

end Cert.KernelIdeal.Hand

end
-- ==== Proof.KI.Run0C.lean ====
/-
  Region 0, the last tile of a batch: the accumulator found at what the tile before left receives this tile's product, and its rounding is stored into the key-value output block; the gate block is stored.
  The body's triple on any whole staging memrefs, with the pieces each written buffer ends with as the witness
  the symbolic run finds.
-/
import proofs.«173808_j83949430767982_2_alg».proof.Proof.KI.Region0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case: the inputs' buffers at their contents come back as they were; the gate output's buffer,
    found at anything, ends with the pieces L6 written; the key-value output's, found at anything, with the pieces L7 written;
    the accumulator ends with the pieces LS0 written. -/
noncomputable def kernelRun0_C (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) :
    Σ' (L6 : List (View.Piece (Elt F) S1x256x1024 .bf16)) (L7 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0__kv_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__kv_kernel_eq_skeleton]; unfold cc0__kv_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelIdeal.Hand

end
-- ==== Proof.KI.Region0.lean ====
/-
  Region 0 (the key-value kernel): what its outputs and its accumulator hold after each grid point, its proof data,
  and the body obligation.

  After point t the gate output's staging buffer holds the gate block of that tile; the accumulator holds, on the
  first tile of a batch, zero plus that tile's key-value product, and on a later tile what the tile before left
  plus this tile's product; on the last tile the key-value output's buffer holds the rounded accumulator. The
  accumulator is a scratch buffer carried from one point to the next, so the region invariant before point n + 1
  names its contents after point n.
-/
import proofs.«173808_j83949430767982_2_alg».proof.Proof.KI.Run0A
import proofs.«173808_j83949430767982_2_alg».proof.Proof.KI.Run0B
import proofs.«173808_j83949430767982_2_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The arrays as the region finds them, per core: a parameter.
variable (V : (c : Dev nD) → (b : Ref sig .tc) → Buf (Elt F) ((c : Thread nD τ).loc b))

/-! ## What each case leaves -/

/-- The pieces this case stores into the gate output tile it: one store of the whole block. -/
theorem cover0_A_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 x3 x4 x5 : Vec F S1024x1024 .bf16) (y : S1x256x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).1 S1x256x1024.size (by sl_kernel_rfl) y

/-- What this case leaves in the gate output's staging buffer: its pieces read back. -/
def out0_A_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 x3 x4 x5 : Vec F S1024x1024 .bf16) : Vec F S1x256x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- The pieces this case stores into the accumulator cover it. -/
theorem scover0_A_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 x3 x4 x5 : Vec F S1024x1024 .bf16) (y : S1024x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S1024x1024.size (by sl_kernel_rfl) y

/-- What this case leaves in the accumulator. -/
def sout0_A_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 x3 x4 x5 : Vec F S1024x1024 .bf16) : Vec F S1024x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.1)

/-- The pieces this case stores into the gate output tile it: one store of the whole block. -/
theorem cover0_B_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 x3 x4 x5 : Vec F S1024x1024 .bf16) (xs0 : Vec F S1024x1024 .f32) (y : S1x256x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0).1 S1x256x1024.size (by sl_kernel_rfl) y

/-- What this case leaves in the gate output's staging buffer: its pieces read back. -/
def out0_B_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 x3 x4 x5 : Vec F S1024x1024 .bf16) (xs0 : Vec F S1024x1024 .f32) : Vec F S1x256x1024 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0).1)

/-- The pieces this case stores into the accumulator cover it. -/
theorem scover0_B_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 x3 x4 x5 : Vec F S1024x1024 .bf16) (xs0 : Vec F S1024x1024 .f32) (y : S1024x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0).2.1 S1024x1024.size (by sl_kernel_rfl) y

/-- What this case leaves in the accumulator. -/
def sout0_B_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 x3 x4 x5 : Vec F S1024x1024 .bf16) (xs0 : Vec F S1024x1024 .f32) : Vec F S1024x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0).2.1)

/-- The pieces this case stores into the gate output tile it: one store of the whole block. -/
theorem cover0_C_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) (y : S1x256x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).1 S1x256x1024.size (by sl_kernel_rfl) y

/-- What this case leaves in the gate output's staging buffer: its pieces read back. -/
def out0_C_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) : Vec F S1x256x1024 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0).1)

/-- The pieces this case stores into the accumulator cover it. -/
theorem scover0_C_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) (y : S1024x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).2.2.1 S1024x1024.size (by sl_kernel_rfl) y

/-- What this case leaves in the accumulator. -/
def sout0_C_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) : Vec F S1024x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0).2.2.1)

/-- On the last tile the one store into the key-value output covers its block. -/
theorem cover0_C_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) (y : S1x1024x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0).2.1 S1x1024x1024.size (by sl_kernel_rfl) y

/-- What the last tile leaves in the key-value output's staging buffer. -/
def out0_C_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) : Vec F S1x1024x1024 .bf16 :=
  VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xs0).2.1)

/-- Off the last tile nothing is stored into the key-value output and nothing consults its contents: a placeholder. -/
def idle0_7 : Vec F S1x1024x1024 .bf16 := VO0_7.read (Elt F) VO0_7.junk

/-! ## Point by point -/

/-- What the gate output's buffer, the key-value output's buffer and the accumulator hold after the body at position n. -/
def outsAt0 (c : Dev nD) : (n : ℕ) → n < cfg0.N → Vec F S1x256x1024 .bf16 × Vec F S1x1024x1024 .bf16 × Vec F S1024x1024 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩), idle0_7, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 16 = 0 then
      if h1 : (n + 1) % 16 = 15 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩), idle0_7, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2, idle0_7, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2.2)

theorem outsAt0_A (c : Dev nD) (t : Fin cfg0.N) (h0 : t.val % 16 = 0) (h1 : ¬t.val % 16 = 15) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), idle0_7, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, idle0_7, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator named from the second point on -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ other0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2) ∗ other0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2) ∗ other0 c) ∗ (∃ r, prngReg c r)) := by
  cases n with
  | zero => exact absurd rfl hz
  | succ n => rfl

/-! ## The proof data -/

/-- Region 0's proof data on core c: the arrays as the region finds them; after the body each input's buffer at
    its block, the outputs' at what the recursion says; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the closed forms of the two conditions say which case the point is in; the inputs'
    buffers hold their blocks; the invariant hands over the accumulator at what the point before left (at anything
    before the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  by_cases h0 : t.val % 16 = 0
  · have h1 : ¬t.val % 16 = 15 := by omega
    rw [Dat.leavesExact_idle (dat0 V c) 7 t (idleAt0_7 t (fun h => h1 ((hcond0_1 t).mp h))) (noFlush0_7 t (fun h => h1 ((hcond0_1 t).mp h)))]
    rw [outsAt0_A V c t h0 h1]
    unfold out0_A_6 sout0_A_0; (try dsimp only)
    by_cases hz : t.val = 0
    · rw [PhiS_castSucc V c t, PhiS_zero V c _ _ hz, PhiA0_eq]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      iexists _; iexact H7
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexists _; iexact HS0
      iintro ⟨H0, H1, H2, H3, H4, H5, ⟨%e6, H6⟩, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _ _)
      iexists _; iexact H7
  · have hz : t.val ≠ 0 := fun h => h0 (by rw [h])
    by_cases h1 : t.val % 16 = 15
    · rw [show (dat0 V c).leavesExact 7 t = owns (c : Thread nD τ) (ms0_7 t) fullShare ((dat0 V c).after 7 t) from by
        unfold Dat.leavesExact; rw [liveAt0_7 t ((hcond0_1 t).mpr h1)], after0_7]
      rw [outsAt0_C V c t h0 h1]
      unfold out0_C_6 out0_C_7 sout0_C_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _)
      unfold owns; iexists _; isplitr
      swap; · iexact H7
      ipureintro; exact View.read_writes_of_cover _ _ _ _ _ (cover0_C_7 c _ _ _ _ _ _ _ _ _ _ _ _ _ _ _ _ _ _ _ _ _ _ _ _ _ _ _ _)
    · rw [Dat.leavesExact_idle (dat0 V c) 7 t (idleAt0_7 t (fun h => h1 ((hcond0_1 t).mp h))) (noFlush0_7 t (fun h => h1 ((hcond0_1 t).mp h)))]
      rw [outsAt0_B V c t h0 h1]
      unfold out0_B_6 sout0_B_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      iintro ⟨H0, H1, H2, H3, H4, H5, ⟨%e6, H6⟩, H7, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _ _)
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]
    · iexists _; iexact HS0
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI.Region1.lean ====
import proofs.«173808_j83949430767982_2_alg».proof.Proof.Gen.KernelIdeal.Launch
import proofs.«173808_j83949430767982_2_alg».proof.Proof.Gen.KernelIdeal.Skeleton
import proofs.«173808_j83949430767982_2_alg».proof.Proof.Gen.KernelIdeal.Points
import Idealize.ShloMosaic.Lib.Pipeline.FrameBody
import Idealize.ShloMosaic.Lib.Pipeline.Regions
import Idealize.ShloMosaic.Lib.Pipeline.Value
import Idealize.ShloMosaic.Lib.Ring
import Idealize.ShloMosaic.Lib.Tactic

/-!
# The second pipeline (the product of the query block with the key-value block), one grid point at a time

The body reads two blocks of shape [1,1024,1024], multiplies them as matrices into a zero accumulator, and
writes the product over the whole output block.  This module states, for arrays V given as a parameter,
what each window's staging buffer holds before and after the body at every grid point, and proves that the
body meets that description.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the arrays as the pipeline finds them on entry
variable (V : (c : Dev nD) → (b : Ref sig .tc) → Buf (Elt F) ((c : Thread nD τ).loc b))

/-! ## The windows' blocks -/

/-- The block of window w at grid point t, read off the window's array as found on entry. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point: it is fetched at every point, and
    any proof data whose array is the entry array and whose body leaves the block in place has it there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key-value window's block index depends on the batch coordinate only, so it is fetched only where
    that coordinate moves; where it is not fetched the index has not moved and the body left the block in
    place, so the staging buffer still holds the block of the current point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The rectangle of every access of the body: the whole block, from offset zero. -/
abbrev r1_0 : Rect S1x1024x1024 := Rect.unit (s := S1x1024x1024) ![0, 0, 0] S1x1024x1024.size inb_S1x1024x1024_S1x1024x1024_0_0_0

/-- Its offsets are all zero. -/
theorem zero_off3 : (![0, 0, 0] : Fin S1x1024x1024.rank → ℕ) = fun _ => 0 := by
  funext a; fin_cases a <;> rfl

/-! ## What the body leaves in the output window's buffer -/

/-- The output block after the body, from the two input blocks: the one store's payload laid over the
    block through the whole-block rectangle. -/
def out1_2 (x0 x1 : Vec F S1x1024x1024 .bf16) : Vec F S1x1024x1024 .f32 :=
  View.canon [⟨r1_0, k1_pay1 (View.ld x0 r1_0) (View.ld x1 r1_0)⟩]

/-- The store's rectangle is the whole block. -/
theorem cover1_2 (p0 : Vec F S1x1024x1024 .f32) (y : S1x1024x1024.Idx) :
    ∃ pc ∈ ([⟨r1_0, p0⟩] : List (View.Piece (Elt F) S1x1024x1024 .f32)), y ∈ pc.1.set :=
  ⟨_, List.mem_singleton_self _, View.mem_set_unit_zero zero_off3 inb_S1x1024x1024_S1x1024x1024_0_0_0 y⟩

/-- One store over the whole block leaves its payload, and a load through the whole-block rectangle reads
    the block itself: the output block is the payload of the two input blocks. -/
theorem out1_2_eq (x0 x1 : Vec F S1x1024x1024 .bf16) : out1_2 x0 x1 = k1_pay1 x0 x1 := by
  unfold out1_2 r1_0
  rw [View.canon_unit_zero zero_off3]
  simp only [View.ld_unit_zero (S := S1x1024x1024) zero_off3]

/-! ## The body's triple -/

set_option maxHeartbeats 1000000 in
/-- The body on whole staging buffers, the two inputs at contents x0 and x1 and the output at anything,
    runs to a continuation that finds the inputs unchanged and the output at the product block of x0 and
    x1: its two input loads read x0 and x1, its load of the output is not used, and its one store writes
    the payload over the whole output block. -/
theorem sound_kernel1 (c : Dev nD) (E : Set ℕ) (i : grid1.Coords)
    (arg0 : Memref sig .tc .vmem S1x1024x1024 .bf16) (harg0 : arg0.IsWhole)
    (arg1 : Memref sig .tc .vmem S1x1024x1024 .bf16) (harg1 : arg1.IsWhole)
    (arg2 : Memref sig .tc .vmem S1x1024x1024 .f32) (harg2 : arg2.IsWhole)
    (x0 x1 : Vec F S1x1024x1024 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out1_2 x0 x1)) -∗ K ⟨⟩))
      ⊢ wp frame (wpE (defs₀ (F := F)) Variants.none c none) E (cc1__out_kernel i arg0 harg0 arg1 harg1 arg2 harg2) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of the second pipeline on core c: the arrays as found on entry; after the body at
    point t each input's buffer still at its block and the output's at the product block of the two input
    blocks; the invariant that of a body touching nothing but its staging buffers; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the entry arrays. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- Each input's staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The whole program as three segments — the host stretch that rounds the four weight matrices, the key-value
  region, the output region — and its run: every weakly fair execution terminates without a fault, and every
  unscoped buffer ends at the contents the segments compose to. The arguments are among those buffers and no
  segment writes them; the result is the output region's array.
-/
import proofs.«173808_j83949430767982_2_alg».proof.Proof.KI.Region0
import proofs.«173808_j83949430767982_2_alg».proof.Proof.KI.Region1
import Idealize.ShloMosaic.Lib.Pipeline.Kit
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m (c, b)
/-- After the host stretch (the key-value region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the key-value region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the output region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and what rides beside the buffers -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- The core's generator register at some state and its debts, none. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The key-value region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    have h := hout0 (V1 m) c
    unfold Pipeline.ΦA at h
    rw [Pipeline.ownSems0_none, show (pdats m 0 c).Φ (Fin.last _) = (dat0 (V1 m) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output region: entered from every unscoped buffer at W2, left at W3. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg0 m), .region (reg0 m), .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched -/

/-- The buffers the host stretch writes: the four rounded weight matrices. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_⟩ <;>
    (simp only [StableHlo.unary_writes, Finset.singleton_subset_iff, List.mem_toFinset]; exact List.mem_map_of_mem (by decide))

/-- A buffer the host stretch does not write holds its launch contents when the first region is entered. -/
theorem W1_of_not_written (c : Dev nD) (b : Ref sig .tc) (hb : b ∉ (hostOps0_W : List (Ref sig .tc))) :
    W1 m c (Proc.devRef .tc b) = m ((c : Thread nD τ).loc b) :=
  StableHlo.after_of_writes_sub hostOps0 _ hostOps0_writes hb

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := W1_of_not_written m c main_arg0 (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((dat0 (V1 m) c).arrAt_in 1 rfl _).trans (A_eq0 (V1 m) c 1))
    _ = m ((c : Thread nD τ).loc main_arg1) := W1_of_not_written m c main_arg1 (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of_not_written m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of_not_written m c main_arg3 (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := W1_of_not_written m c main_arg4 (by decide)
theorem W3_main_arg5 (c : Dev nD) : W3 m c (Proc.devRef .tc main_arg5) = m ((c : Thread nD τ).loc main_arg5) :=
  calc W3 m c (Proc.devRef .tc main_arg5)
    _ = W2 m c (Proc.devRef .tc main_arg5) := W3_of_ne m c main_arg5 (by decide)
    _ = W1 m c (Proc.devRef .tc main_arg5) := W2_of_ne m c main_arg5 (by decide)
    _ = m ((c : Thread nD τ).loc main_arg5) := W1_of_not_written m c main_arg5 (by decide)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c)⟩) (run_all m ρ)

end Cert.KernelIdeal.Hand

end
-- ==== Proof.KI.Blocks0.lean ====
/-
  Region 0: where each window's block sits in its array.

  The grid is 4 batches by 16 row tiles; point t has batch t / 16 and tile t mod 16. The two inputs of shape
  [4, 4096, 1024] and the gate output of the same shape are cut into blocks [1, 256, 1024]: the block of point t is
  rows 256·(t mod 16) … 256·(t mod 16) + 255 of batch t / 16. The four weight matrices are one block each, the same at
  every point. The key-value output [4, 1024, 1024] is cut into one block [1, 1024, 1024] per batch, written back at the
  last tile of the batch only. Reading a block at an index is reading the array at the index moved by the block's
  offset; the gate output's blocks cover its array, and so do the key-value output's blocks at the last tiles.
-/
import proofs.«173808_j83949430767982_2_alg».proof.Proof.KI.Region0Base
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The grid's points -/

/-- The grid has 64 points. -/
theorem pt_lt (t : Fin cfg0.N) : t.val < 64 := by
  have h := t.isLt
  have hN : cfg0.N = 64 := N_0
  omega

/-- The batch of a point. -/
abbrev batchOf (t : Fin cfg0.N) : Fin 4 := ⟨t.val / 16, by have := pt_lt t; omega⟩
/-- Row r of a point's tile, as a row of the batch. -/
abbrev rowOf (t : Fin cfg0.N) (r : Fin 256) : Fin 4096 := ⟨256 * (t.val % 16) + r.val, by have := r.isLt; omega⟩

/-! ## The block indices, decided once over the grid -/

/-- The row-tiled windows (the two inputs and the gate output) sit at block (batch, tile, 0); the weight matrices at
    block (0, 0); the key-value output at block (batch, 0, 0). -/
theorem blockIdx0 : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val / 16 ∧ win0_6.index t (1 : Fin 3) = t.val % 16 ∧ win0_6.index t (2 : Fin 3) = 0)
    ∧ (win0_7.index t (0 : Fin 3) = t.val / 16 ∧ win0_7.index t (1 : Fin 3) = 0 ∧ win0_7.index t (2 : Fin 3) = 0) :=
  (by decide +kernel : ∀ t : Fin grid0.N, _)

/-! ## A block read at an index -/

/-- Input window 0 (x_real): row r, column k of the block at point t is row 256·(t mod 16) + r of batch t / 16. -/
theorem blk0_0_read (G : S4x4096x1024.Idx → Elt F .f32) (t : Fin cfg0.N) (r : Fin 256) (k : Fin 1024) :
    ((cfg0.win 0).blk t).view.read (Elt F) G (ix3 (0 : Fin 1) r k) = G (ix3 (batchOf t) (rowOf t r) k) := by
  obtain ⟨⟨e0, e1, e2⟩, -⟩ := blockIdx0 t
  show G (((cfg0.win 0).blk t).view.emb (ix3 (0 : Fin 1) r k)) = _
  refine congrArg G (funext fun a => Fin.ext ?_)
  match a with
  | ⟨0, _⟩ => show win0_0.index t (0 : Fin 3) * 1 + 1 * 0 = t.val / 16; omega
  | ⟨1, _⟩ => show win0_0.index t (1 : Fin 3) * 256 + 1 * r.val = 256 * (t.val % 16) + r.val; omega
  | ⟨2, _⟩ => show win0_0.index t (2 : Fin 3) * 1024 + 1 * k.val = k.val; omega

/-- Input window 1 (x_imag): the same rows of the same batch. -/
theorem blk0_1_read (G : S4x4096x1024.Idx → Elt F .f32) (t : Fin cfg0.N) (r : Fin 256) (k : Fin 1024) :
    ((cfg0.win 1).blk t).view.read (Elt F) G (ix3 (0 : Fin 1) r k) = G (ix3 (batchOf t) (rowOf t r) k) := by
  obtain ⟨e0, e1, e2⟩ := (blockIdx0 t).2.1
  show G (((cfg0.win 1).blk t).view.emb (ix3 (0 : Fin 1) r k)) = _
  refine congrArg G (funext fun a => Fin.ext ?_)
  match a with
  | ⟨0, _⟩ => show win0_1.index t (0 : Fin 3) * 1 + 1 * 0 = t.val / 16; omega
  | ⟨1, _⟩ => show win0_1.index t (1 : Fin 3) * 256 + 1 * r.val = 256 * (t.val % 16) + r.val; omega
  | ⟨2, _⟩ => show win0_1.index t (2 : Fin 3) * 1024 + 1 * k.val = k.val; omega

/-- The four weight matrices are whole blocks, the same at every point: window 2 … -/
theorem blk0_2_read (G : S1024x1024.Idx → Elt F .bf16) (t : Fin cfg0.N) (k d : Fin 1024) :
    ((cfg0.win 2).blk t).view.read (Elt F) G (ix2 k d) = G (ix2 k d) := by
  obtain ⟨e0, e1⟩ := (blockIdx0 t).2.2.1
  show G (((cfg0.win 2).blk t).view.emb (ix2 k d)) = _
  refine congrArg G (funext fun a => Fin.ext ?_)
  match a with
  | ⟨0, _⟩ => show win0_2.index t (0 : Fin 2) * 1024 + 1 * k.val = k.val; omega
  | ⟨1, _⟩ => show win0_2.index t (1 : Fin 2) * 1024 + 1 * d.val = d.val; omega

/-- … window 3 … -/
theorem blk0_3_read (G : S1024x1024.Idx → Elt F .bf16) (t : Fin cfg0.N) (k d : Fin 1024) :
    ((cfg0.win 3).blk t).view.read (Elt F) G (ix2 k d) = G (ix2 k d) := by
  obtain ⟨e0, e1⟩ := (blockIdx0 t).2.2.2.1
  show G (((cfg0.win 3).blk t).view.emb (ix2 k d)) = _
  refine congrArg G (funext fun a => Fin.ext ?_)
  match a with
  | ⟨0, _⟩ => show win0_3.index t (0 : Fin 2) * 1024 + 1 * k.val = k.val; omega
  | ⟨1, _⟩ => show win0_3.index t (1 : Fin 2) * 1024 + 1 * d.val = d.val; omega

/-- … window 4 … -/
theorem blk0_4_read (G : S1024x1024.Idx → Elt F .bf16) (t : Fin cfg0.N) (k d : Fin 1024) :
    ((cfg0.win 4).blk t).view.read (Elt F) G (ix2 k d) = G (ix2 k d) := by
  obtain ⟨e0, e1⟩ := (blockIdx0 t).2.2.2.2.1
  show G (((cfg0.win 4).blk t).view.emb (ix2 k d)) = _
  refine congrArg G (funext fun a => Fin.ext ?_)
  match a with
  | ⟨0, _⟩ => show win0_4.index t (0 : Fin 2) * 1024 + 1 * k.val = k.val; omega
  | ⟨1, _⟩ => show win0_4.index t (1 : Fin 2) * 1024 + 1 * d.val = d.val; omega

/-- … and window 5. -/
theorem blk0_5_read (G : S1024x1024.Idx → Elt F .bf16) (t : Fin cfg0.N) (k d : Fin 1024) :
    ((cfg0.win 5).blk t).view.read (Elt F) G (ix2 k d) = G (ix2 k d) := by
  obtain ⟨e0, e1⟩ := (blockIdx0 t).2.2.2.2.2.1
  show G (((cfg0.win 5).blk t).view.emb (ix2 k d)) = _
  refine congrArg G (funext fun a => Fin.ext ?_)
  match a with
  | ⟨0, _⟩ => show win0_5.index t (0 : Fin 2) * 1024 + 1 * k.val = k.val; omega
  | ⟨1, _⟩ => show win0_5.index t (1 : Fin 2) * 1024 + 1 * d.val = d.val; omega

/-- Output window 6 (the gate): the same rows of the same batch as the inputs' blocks. -/
theorem blk0_6_read (G : S4x4096x1024.Idx → Elt F .bf16) (t : Fin cfg0.N) (r : Fin 256) (k : Fin 1024) :
    ((cfg0.win 6).blk t).view.read (Elt F) G (ix3 (0 : Fin 1) r k) = G (ix3 (batchOf t) (rowOf t r) k) := by
  obtain ⟨e0, e1, e2⟩ := (blockIdx0 t).2.2.2.2.2.2.1
  show G (((cfg0.win 6).blk t).view.emb (ix3 (0 : Fin 1) r k)) = _
  refine congrArg G (funext fun a => Fin.ext ?_)
  match a with
  | ⟨0, _⟩ => show win0_6.index t (0 : Fin 3) * 1 + 1 * 0 = t.val / 16; omega
  | ⟨1, _⟩ => show win0_6.index t (1 : Fin 3) * 256 + 1 * r.val = 256 * (t.val % 16) + r.val; omega
  | ⟨2, _⟩ => show win0_6.index t (2 : Fin 3) * 1024 + 1 * k.val = k.val; omega

/-- Output window 7 (the key-value product): the block at point t is the whole matrix of batch t / 16. -/
theorem blk0_7_read (G : S4x1024x1024.Idx → Elt F .bf16) (t : Fin cfg0.N) (d e : Fin 1024) :
    ((cfg0.win 7).blk t).view.read (Elt F) G (ix3 (0 : Fin 1) d e) = G (ix3 (batchOf t) d e) := by
  obtain ⟨e0, e1, e2⟩ := (blockIdx0 t).2.2.2.2.2.2.2
  show G (((cfg0.win 7).blk t).view.emb (ix3 (0 : Fin 1) d e)) = _
  refine congrArg G (funext fun a => Fin.ext ?_)
  match a with
  | ⟨0, _⟩ => show win0_7.index t (0 : Fin 3) * 1 + 1 * 0 = t.val / 16; omega
  | ⟨1, _⟩ => show win0_7.index t (1 : Fin 3) * 1024 + 1 * d.val = d.val; omega
  | ⟨2, _⟩ => show win0_7.index t (2 : Fin 3) * 1024 + 1 * e.val = e.val; omega

/-! ## The output blocks cover their arrays -/

/-- An index of the gate's array is in point t's block iff, on each axis, it lies in the block's range. -/
theorem mem_blk0_6 (t : Fin cfg0.N) (i : S4x4096x1024.Idx) :
    i ∈ ((cfg0.win 6).blk t).view.set ↔ ∀ a : Fin 3, win0_6.index t a * S1x256x1024.size a ≤ (i a).val
      ∧ (i a).val < win0_6.index t a * S1x256x1024.size a + S1x256x1024.size a := by
  show i ∈ ((View.whole main_v4_0).slice (win0_6.rect t)).set ↔ _
  rw [View.set_slice_whole, Rect.mem_set_unit]
  exact Iff.rfl

/-- Row n of batch b of the gate's array is written back by the point of batch b and tile n / 256. -/
theorem cover0_6 (i : S4x4096x1024.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 1024 := (i 2).isLt
  have hN : cfg0.N = 64 := N_0
  obtain ⟨t, ht⟩ : ∃ t : Fin cfg0.N, t.val = 16 * (i 0).val + (i 1).val / 256 :=
    ⟨⟨16 * (i 0).val + (i 1).val / 256, by omega⟩, rfl⟩
  obtain ⟨e0, e1, e2⟩ := (blockIdx0 t).2.2.2.2.2.2.1
  refine ⟨t, flush0_6 t, ?_⟩
  rw [mem_blk0_6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- An index of the key-value array is in point t's block iff, on each axis, it lies in the block's range. -/
theorem mem_blk0_7 (t : Fin cfg0.N) (i : S4x1024x1024.Idx) :
    i ∈ ((cfg0.win 7).blk t).view.set ↔ ∀ a : Fin 3, win0_7.index t a * S1x1024x1024.size a ≤ (i a).val
      ∧ (i a).val < win0_7.index t a * S1x1024x1024.size a + S1x1024x1024.size a := by
  show i ∈ ((View.whole main_v4_1).slice (win0_7.rect t)).set ↔ _
  rw [View.set_slice_whole, Rect.mem_set_unit]
  exact Iff.rfl

/-- The matrix of batch b of the key-value array is written back by the last tile of batch b. -/
theorem cover0_7 (i : S4x1024x1024.Idx) :
    ∃ t : Fin cfg0.N, (cfg0.win 7).flush t = true ∧ i ∈ ((cfg0.win 7).blk t).view.set := by
  have hi0 : (i 0).val < 4 := (i 0).isLt
  have hi1 : (i 1).val < 1024 := (i 1).isLt
  have hi2 : (i 2).val < 1024 := (i 2).isLt
  have hN : cfg0.N = 64 := N_0
  obtain ⟨t, ht⟩ : ∃ t : Fin cfg0.N, t.val = 16 * (i 0).val + 15 := ⟨⟨16 * (i 0).val + 15, by omega⟩, rfl⟩
  obtain ⟨e0, e1, e2⟩ := (blockIdx0 t).2.2.2.2.2.2.2
  refine ⟨t, (flush0_7 t).mpr (by omega), ?_⟩
  rw [mem_blk0_7]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1024 ≤ (i 1).val ∧ (i 1).val < win0_7.index t (1 : Fin 3) * 1024 + 1024; omega
  | ⟨2, _⟩ => show win0_7.index t (2 : Fin 3) * 1024 ≤ (i 2).val ∧ (i 2).val < win0_7.index t (2 : Fin 3) * 1024 + 1024; omega

end Cert.KernelIdeal.Hand

end
-- ==== Proof.KI.Pieces0.lean ====
import proofs.«173808_j83949430767982_2_alg».proof.Proof.KI.Region0
import Idealize.ShloMosaic.Lib.Pipeline.Value
import Idealize.ShloMosaic.Lib.Tactic

/-!
# What the first pipeline's body leaves in each buffer it writes, in its three cases

The body runs in one of three ways, by the row tile of the grid point within its batch: on the first
tile it zeroes the accumulator before adding; on a middle tile it only adds; on the last tile it adds
and then rounds the accumulator into the key-value output block.  In every case it stores the gate
block (the elementwise product of the two query projections of this tile), and it adds this tile's
key-value product to the accumulator.  Each written buffer receives whole-block stores only, so what it
holds afterwards is the last store's payload; a load that follows a store into the same buffer reads
that store's payload back.  The statements below name those payloads.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- The whole-block rectangles start at offset zero, in rank 2 -/
theorem piece_zero2 : (![0, 0] : Fin 2 → ℕ) = fun _ => 0 := funext fun a => by fin_cases a <;> rfl
/-- and in rank 3. -/
theorem piece_zero3 : (![0, 0, 0] : Fin 3 → ℕ) = fun _ => 0 := funext fun a => by fin_cases a <;> rfl

/-- First tile: the gate output block is the gate payload of the two x blocks and the two query weight
    blocks (one store over the whole block, its loads reading whole buffers). -/
theorem piece0_A_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 x3 x4 x5 : Vec F S1024x1024 .bf16) :
    out0_A_6 c i arg2 harg2 arg3 harg3 arg4 harg4 arg5 harg5 arg6 harg6 arg7 harg7 arg8 harg8 arg9 harg9 arg10 harg10 hc0 hc1 x0 x1 x2 x3 x4 x5 = k0_pay6 x0 x1 x4 x5 := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4 x5)]
  unfold kernelRun0_A
  dsimp only
  rw [View.canon_unit_zero piece_zero3]
  simp only [View.readAt_eq_ld, harg2.read_unread, harg3.read_unread, harg4.read_unread, harg5.read_unread, harg6.read_unread, harg7.read_unread, harg9.read_unread, harg10.read_unread, View.ld_unit_zero (S := S1x256x1024) piece_zero3, View.ld_unit_zero (S := S1x1024x1024) piece_zero3, View.ld_unit_zero (S := S1024x1024) piece_zero2]

/-- First tile: the accumulator is first set to the zero block; the load that follows reads that zero
    block back, and the last store leaves it plus this tile's key-value product. -/
theorem spiece0_A_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : cond0_0 i) (hc1 : ¬cond0_1 i)
    (x0 x1 : Vec F S1x256x1024 .f32) (x2 x3 x4 x5 : Vec F S1024x1024 .bf16) :
    sout0_A_0 c i arg2 harg2 arg3 harg3 arg4 harg4 arg5 harg5 arg6 harg6 arg7 harg7 arg8 harg8 arg9 harg9 arg10 harg10 hc0 hc1 x0 x1 x2 x3 x4 x5 = k0_pay1 (k0_pay7 x0 x1 x2 x3) k0_pay3 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) piece_zero2, View.readCov_unit_zero (S := S1024x1024) _ piece_zero2]
  simp only [View.readAt_eq_ld, harg2.read_unread, harg3.read_unread, harg4.read_unread, harg5.read_unread, harg6.read_unread, harg7.read_unread, harg9.read_unread, harg10.read_unread, View.ld_unit_zero (S := S1x256x1024) piece_zero3, View.ld_unit_zero (S := S1x1024x1024) piece_zero3, View.ld_unit_zero (S := S1024x1024) piece_zero2]

/-- Middle tile: the gate output block is the gate payload of the two x blocks and the two query weight
    blocks (one store over the whole block, its loads reading whole buffers). -/
theorem piece0_B_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 x3 x4 x5 : Vec F S1024x1024 .bf16) (xs0 : Vec F S1024x1024 .f32) :
    out0_B_6 c i arg2 harg2 arg3 harg3 arg4 harg4 arg5 harg5 arg6 harg6 arg7 harg7 arg8 harg8 arg9 harg9 arg10 harg10 hc0 hc1 x0 x1 x2 x3 x4 x5 xs0 = k0_pay6 x0 x1 x4 x5 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  rw [View.canon_unit_zero piece_zero3]
  simp only [View.readAt_eq_ld, harg2.read_unread, harg3.read_unread, harg4.read_unread, harg5.read_unread, harg6.read_unread, harg7.read_unread, harg9.read_unread, harg10.read_unread, View.ld_unit_zero (S := S1x256x1024) piece_zero3, View.ld_unit_zero (S := S1x1024x1024) piece_zero3, View.ld_unit_zero (S := S1024x1024) piece_zero2]

/-- Middle tile: the accumulator, found at xs0, ends at xs0 plus this tile's key-value product. -/
theorem spiece0_B_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : ¬cond0_1 i)
    (x0 x1 : Vec F S1x256x1024 .f32) (x2 x3 x4 x5 : Vec F S1024x1024 .bf16) (xs0 : Vec F S1024x1024 .f32) :
    sout0_B_0 c i arg2 harg2 arg3 harg3 arg4 harg4 arg5 harg5 arg6 harg6 arg7 harg7 arg8 harg8 arg9 harg9 arg10 harg10 hc0 hc1 x0 x1 x2 x3 x4 x5 xs0 = k0_pay1 (k0_pay7 x0 x1 x2 x3) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  rw [View.canon_unit_zero piece_zero2]
  simp only [View.readAt_eq_ld, harg2.read_unread, harg3.read_unread, harg4.read_unread, harg5.read_unread, harg6.read_unread, harg7.read_unread, harg9.read_unread, harg10.read_unread, View.ld_unit_zero (S := S1x256x1024) piece_zero3, View.ld_unit_zero (S := S1x1024x1024) piece_zero3, View.ld_unit_zero (S := S1024x1024) piece_zero2]

/-- Last tile: the gate output block is the gate payload of the two x blocks and the two query weight
    blocks (one store over the whole block, its loads reading whole buffers). -/
theorem piece0_C_6 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) :
    out0_C_6 c i arg2 harg2 arg3 harg3 arg4 harg4 arg5 harg5 arg6 harg6 arg7 harg7 arg8 harg8 arg9 harg9 arg10 harg10 hc0 hc1 x0 x1 x2 x3 x4 x5 xs0 = k0_pay6 x0 x1 x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  rw [View.canon_unit_zero piece_zero3]
  simp only [View.readAt_eq_ld, harg2.read_unread, harg3.read_unread, harg4.read_unread, harg5.read_unread, harg6.read_unread, harg7.read_unread, harg9.read_unread, harg10.read_unread, View.ld_unit_zero (S := S1x256x1024) piece_zero3, View.ld_unit_zero (S := S1x1024x1024) piece_zero3, View.ld_unit_zero (S := S1024x1024) piece_zero2]

/-- Last tile: the accumulator, found at xs0, ends at xs0 plus this tile's key-value product. -/
theorem spiece0_C_0 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) :
    sout0_C_0 c i arg2 harg2 arg3 harg3 arg4 harg4 arg5 harg5 arg6 harg6 arg7 harg7 arg8 harg8 arg9 harg9 arg10 harg10 hc0 hc1 x0 x1 x2 x3 x4 x5 xs0 = k0_pay1 (k0_pay7 x0 x1 x2 x3) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero piece_zero2]
  simp only [View.readAt_eq_ld, harg2.read_unread, harg3.read_unread, harg4.read_unread, harg5.read_unread, harg6.read_unread, harg7.read_unread, harg9.read_unread, harg10.read_unread, View.ld_unit_zero (S := S1x256x1024) piece_zero3, View.ld_unit_zero (S := S1x1024x1024) piece_zero3, View.ld_unit_zero (S := S1024x1024) piece_zero2]

/-- Last tile: the key-value output block is the rounding of the accumulator just updated, since the
    load of the accumulator reads back the store made a moment before. -/
theorem piece0_C_7 (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1x256x1024 .bf16) (harg8 : arg8.IsWhole) (arg9 : Memref sig .tc .vmem S1x1024x1024 .bf16) (harg9 : arg9.IsWhole) (arg10 : Memref sig .tc .vmem S1024x1024 .f32) (harg10 : arg10.IsWhole) (hc0 : ¬cond0_0 i) (hc1 : cond0_1 i)
    (x0 x1 : Vec F S1x256x1024 .f32) (x2 x3 x4 x5 : Vec F S1024x1024 .bf16) (xs0 : Vec F S1024x1024 .f32) :
    out0_C_7 c i arg2 harg2 arg3 harg3 arg4 harg4 arg5 harg5 arg6 harg6 arg7 harg7 arg8 harg8 arg9 harg9 arg10 harg10 hc0 hc1 x0 x1 x2 x3 x4 x5 xs0 = k0_pay2 (k0_pay1 (k0_pay7 x0 x1 x2 x3) xs0) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero piece_zero3, View.readCov_unit_zero (S := S1024x1024) _ piece_zero2]
  simp only [View.readAt_eq_ld, harg2.read_unread, harg3.read_unread, harg4.read_unread, harg5.read_unread, harg6.read_unread, harg7.read_unread, harg9.read_unread, harg10.read_unread, View.ld_unit_zero (S := S1x256x1024) piece_zero3, View.ld_unit_zero (S := S1x1024x1024) piece_zero3, View.ld_unit_zero (S := S1024x1024) piece_zero2]

end Cert.KernelIdeal.Hand

end
-- ==== Proof.KI.Value0.lean ====
/-
  The values the first region's body computes, read at an index, on the extended reals.

  One step of the first region takes a tile of 256 rows of x_real and x_imag. It forms four products of the tile with a
  weight matrix (entry (r, d) is the sum over the 1024 columns k of tile(r, k) · w(k, d)), multiplies the two query
  products entry by entry, and contracts the key product with the value product over the 256 rows of the tile (entry
  (d, e) is the sum over the rows r of key(r, d) · value(r, e)). That last matrix is added to a running total which the
  first tile of a batch starts from zero. On the extended reals a change of float format is the identity and a product
  accumulated into a zero matrix is the bare sum, so each value is a plain finite sum of products.
-/
import proofs.«173808_j83949430767982_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ### The two products of the matrix unit, into a zero matrix, at an index -/

/-- Rows times weights: at (r, d) the left operand is read along row r, the right one down column d. -/
abbrev DRows := dot_S256x1024_S1024x1024_S256x1024_1_0_0_1_n_n
/-- The contraction over the rows of both operands: at (d, e) the left operand is read down column d, the right one
    down column e. -/
abbrev DCols := dot_S256x1024_S256x1024_S1024x1024_0_0_1_1_n_n

theorem rows_lhs_0 (i : S256x1024.Idx) (q : DRows.contr.Idx) : (DRows.lhsIdx i q 0).val = (i 0).val := by
  unfold DotDims.lhsIdx
  rw [dif_neg (show ¬(0 : Fin S256x1024.rank) ∈ DRows.lhsBatch by decide),
    dif_pos (show (0 : Fin S256x1024.rank) ∈ DRows.lhsNonContracting by decide)]
  rfl
theorem rows_lhs_1 (i : S256x1024.Idx) (q : DRows.contr.Idx) : (DRows.lhsIdx i q 1).val = (q ⟨0, by decide⟩).val :=
  DRows.lhsIdx_val_of_single rfl i q
theorem rows_rhs_0 (i : S256x1024.Idx) (q : DRows.contr.Idx) : (DRows.rhsIdx i q 0).val = (q ⟨0, by decide⟩).val :=
  DRows.rhsIdx_val_of_single rfl i q
theorem rows_rhs_1 (i : S256x1024.Idx) (q : DRows.contr.Idx) : (DRows.rhsIdx i q 1).val = (i 1).val := by
  unfold DotDims.rhsIdx
  rw [dif_neg (show ¬(1 : Fin S1024x1024.rank) ∈ DRows.rhsBatch by decide),
    dif_pos (show (1 : Fin S1024x1024.rank) ∈ DRows.rhsNonContracting by decide)]
  rfl

/-- A tile times a weight matrix, accumulated into zero: entry (r, d) is the sum over the columns k of the tile. -/
theorem matmul_rows_apply {φ₁ φ₂ : FTy} (lhs : FVec Ideal S256x1024 φ₁) (rhs : FVec Ideal S1024x1024 φ₂)
    (r : Fin 256) (d : Fin 1024) :
    FloatOps.matmul DRows none lhs rhs (constant (F := Ideal) S256x1024 .f32 0x00000000#32) (ix2 r d)
      = ∑ k : Fin 1024, lhs (ix2 r k) * rhs (ix2 k d) := by
  rw [Ideal.matmul_constant_zero_apply, ← Equiv.sum_comp (contrEquiv1 DRows 1024 rfl rfl).symm]
  refine Finset.sum_congr rfl fun k _ => ?_
  have hk := contrEquiv1_symm_val DRows 1024 rfl rfl k
  have el : DRows.lhsIdx (ix2 r d) ((contrEquiv1 DRows 1024 rfl rfl).symm k) = ix2 r k := funext fun a => Fin.ext (by
    match a with
    | ⟨0, _⟩ => exact rows_lhs_0 _ _
    | ⟨1, _⟩ => exact (rows_lhs_1 _ _).trans hk)
  have er : DRows.rhsIdx (ix2 r d) ((contrEquiv1 DRows 1024 rfl rfl).symm k) = ix2 k d := funext fun a => Fin.ext (by
    match a with
    | ⟨0, _⟩ => exact (rows_rhs_0 _ _).trans hk
    | ⟨1, _⟩ => exact rows_rhs_1 _ _)
  rw [el, er]

theorem cols_lhs_0 (i : S1024x1024.Idx) (q : DCols.contr.Idx) : (DCols.lhsIdx i q 0).val = (q ⟨0, by decide⟩).val :=
  DCols.lhsIdx_val_of_single rfl i q
theorem cols_lhs_1 (i : S1024x1024.Idx) (q : DCols.contr.Idx) : (DCols.lhsIdx i q 1).val = (i 0).val := by
  unfold DotDims.lhsIdx
  rw [dif_neg (show ¬(1 : Fin S256x1024.rank) ∈ DCols.lhsBatch by decide),
    dif_pos (show (1 : Fin S256x1024.rank) ∈ DCols.lhsNonContracting by decide)]
  rfl
theorem cols_rhs_0 (i : S1024x1024.Idx) (q : DCols.contr.Idx) : (DCols.rhsIdx i q 0).val = (q ⟨0, by decide⟩).val :=
  DCols.rhsIdx_val_of_single rfl i q
theorem cols_rhs_1 (i : S1024x1024.Idx) (q : DCols.contr.Idx) : (DCols.rhsIdx i q 1).val = (i 1).val := by
  unfold DotDims.rhsIdx
  rw [dif_neg (show ¬(1 : Fin S256x1024.rank) ∈ DCols.rhsBatch by decide),
    dif_pos (show (1 : Fin S256x1024.rank) ∈ DCols.rhsNonContracting by decide)]
  rfl

/-- Two tiles contracted over their 256 rows, accumulated into zero: entry (d, e) is the sum over the rows r. -/
theorem matmul_cols_apply {φ₁ φ₂ : FTy} (lhs : FVec Ideal S256x1024 φ₁) (rhs : FVec Ideal S256x1024 φ₂)
    (d e : Fin 1024) :
    FloatOps.matmul DCols none lhs rhs (constant (F := Ideal) S1024x1024 .f32 0x00000000#32) (ix2 d e)
      = ∑ r : Fin 256, lhs (ix2 r d) * rhs (ix2 r e) := by
  rw [Ideal.matmul_constant_zero_apply, ← Equiv.sum_comp (contrEquiv1 DCols 256 rfl rfl).symm]
  refine Finset.sum_congr rfl fun k _ => ?_
  have hk := contrEquiv1_symm_val DCols 256 rfl rfl k
  have el : DCols.lhsIdx (ix2 d e) ((contrEquiv1 DCols 256 rfl rfl).symm k) = ix2 k d := funext fun a => Fin.ext (by
    match a with
    | ⟨0, _⟩ => exact (cols_lhs_0 _ _).trans hk
    | ⟨1, _⟩ => exact cols_lhs_1 _ _)
  have er : DCols.rhsIdx (ix2 d e) ((contrEquiv1 DCols 256 rfl rfl).symm k) = ix2 k e := funext fun a => Fin.ext (by
    match a with
    | ⟨0, _⟩ => exact (cols_rhs_0 _ _).trans hk
    | ⟨1, _⟩ => exact cols_rhs_1 _ _)
  rw [el, er]

/-! ### A change of float format, a cast to the same shape, a leading unit axis -/

/-- The tile as a matrix, narrowed: the cast drops the leading unit axis and the narrowing is the identity. -/
theorem k0_pay4_apply (v3 : Vec Ideal S1x256x1024 .f32) (r : Fin 256) (k : Fin 1024) :
    k0_pay4 (F := Ideal) v3 (ix2 r k) = v3 (ix3 (0 : Fin 1) r k) := by
  unfold k0_pay4
  exact shapeCast_1ab_ab_apply v3 shapeCasts_S1x256x1024_S256x1024 r k

theorem k0_pay5_apply (v6 : Vec Ideal S1x256x1024 .f32) (r : Fin 256) (k : Fin 1024) :
    k0_pay5 (F := Ideal) v6 (ix2 r k) = v6 (ix3 (0 : Fin 1) r k) := by
  unfold k0_pay5
  exact shapeCast_1ab_ab_apply v6 shapeCasts_S1x256x1024_S256x1024 r k

/-! ### The stored values -/

/-- The value the first tile of a batch puts in the running total: zero everywhere. -/
theorem k0_pay3_apply (j : S1024x1024.Idx) : k0_pay3 (F := Ideal) j = 0 := by
  unfold k0_pay3
  rw [shapeCast_self]
  exact Ideal.ofBits_zero_f32

/-- The running total after a tile: what was there plus the tile's key-value product. -/
theorem k0_pay1_apply (v28 : FVec Ideal S1024x1024 .f32) (v29 : Vec Ideal S1024x1024 .f32) (j : S1024x1024.Idx) :
    k0_pay1 (F := Ideal) v28 v29 j = v29 j + v28 j := by
  unfold k0_pay1
  rw [shapeCast_self]
  rfl

/-- The key-value matrix written out for the batch: the running total, narrowed (the identity here), under a
    leading unit axis. -/
theorem k0_pay2_apply (v37 : Vec Ideal S1024x1024 .f32) (d e : Fin 1024) :
    k0_pay2 (F := Ideal) v37 (ix3 (0 : Fin 1) d e) = v37 (ix2 d e) := by
  unfold k0_pay2
  exact shapeCast_ab_1ab_apply (truncf (F := Ideal) .bf16 v37 bitsLt_bf16_f32) shapeCasts_S1024x1024_S1x1024x1024 0 d e

/-- The gate of a tile: the product, entry by entry, of the tile of x_real times one weight matrix and the tile of
    x_imag times another. -/
theorem k0_pay6_apply (v3 v6 : Vec Ideal S1x256x1024 .f32) (v15 v18 : Vec Ideal S1024x1024 .bf16)
    (r : Fin 256) (d : Fin 1024) :
    k0_pay6 (F := Ideal) v3 v6 v15 v18 (ix3 (0 : Fin 1) r d)
      = (∑ k : Fin 1024, v3 (ix3 (0 : Fin 1) r k) * v15 (ix2 k d))
        * (∑ k : Fin 1024, v6 (ix3 (0 : Fin 1) r k) * v18 (ix2 k d)) := by
  unfold k0_pay6
  refine (shapeCast_ab_1ab_apply _ shapeCasts_S256x1024_S1x256x1024 0 r d).trans ?_
  rw [shapeCast_self, shapeCast_self]
  show FloatOps.matmul (φ₁ := .bf16) (φ₂ := .bf16) DRows none (k0_pay4 (F := Ideal) v3) v15 (constant (F := Ideal) S256x1024 .f32 0x00000000#32) (ix2 r d)
      * FloatOps.matmul (φ₁ := .bf16) (φ₂ := .bf16) DRows none (k0_pay5 (F := Ideal) v6) v18 (constant (F := Ideal) S256x1024 .f32 0x00000000#32) (ix2 r d) = _
  rw [matmul_rows_apply, matmul_rows_apply]
  simp only [k0_pay4_apply, k0_pay5_apply]

/-- The key-value product of a tile: the tile of x_real times the key weights and the tile of x_imag times the value
    weights, contracted over the 256 rows of the tile. -/
theorem k0_pay7_apply (v3 v6 : Vec Ideal S1x256x1024 .f32) (v9 v12 : Vec Ideal S1024x1024 .bf16) (d e : Fin 1024) :
    k0_pay7 (F := Ideal) v3 v6 v9 v12 (ix2 d e)
      = ∑ r : Fin 256, (∑ k : Fin 1024, v3 (ix3 (0 : Fin 1) r k) * v9 (ix2 k d))
          * (∑ k : Fin 1024, v6 (ix3 (0 : Fin 1) r k) * v12 (ix2 k e)) := by
  unfold k0_pay7
  rw [shapeCast_self, shapeCast_self]
  refine (matmul_cols_apply _ _ d e).trans ?_
  refine Finset.sum_congr rfl fun r _ => ?_
  show FloatOps.matmul (φ₁ := .bf16) (φ₂ := .bf16) DRows none (k0_pay4 (F := Ideal) v3) v9 (constant (F := Ideal) S256x1024 .f32 0x00000000#32) (ix2 r d)
      * FloatOps.matmul (φ₁ := .bf16) (φ₂ := .bf16) DRows none (k0_pay5 (F := Ideal) v6) v12 (constant (F := Ideal) S256x1024 .f32 0x00000000#32) (ix2 r e) = _
  rw [matmul_rows_apply, matmul_rows_apply]
  simp only [k0_pay4_apply, k0_pay5_apply]

end Cert.KernelIdeal.Hand

end
-- ==== Proof.Spec.lean ====
/-
  The function both programs compute, index by index, on the extended reals.

  With x_real, x_imag of shape [4, 4096, 1024] and four weight matrices of shape [1024, 1024]:
    proj x w (b, n, d)   = Σ_k x(b, n, k) · w(k, d)                      rows times weights
    query (b, n, d)      = proj x_real w_query_real · proj x_imag w_query_imag   the gate, a pointwise product
    kv (b, d, e)         = Σ_n proj x_real w_key (b, n, d) · proj x_imag w_value (b, n, e)
    result (b, n, e)     = Σ_d query (b, n, d) · kv (b, d, e)
  Nothing here needs finiteness: the two programs differ only in how the sum over n is grouped, and
  addition on the extended reals is commutative and associative at the infinities too.
-/
import Idealize.ShloMosaic.PureOps.Ideal
import Idealize.ShloMosaic.Lib.ValueIdx

noncomputable section

open scoped BigOperators

namespace Cert.Spec

open Idealize.ShloMosaic Idealize.ShloMosaic.ValueIdx

/-- The shape of x_real, x_imag and of the result. -/
abbrev SX : Shape := ⟨3, ![4, 4096, 1024]⟩
/-- The shape of each weight matrix. -/
abbrev SW : Shape := ⟨2, ![1024, 1024]⟩
/-- The shape of the reduced key-value product, one matrix per batch. -/
abbrev SKV : Shape := ⟨3, ![4, 1024, 1024]⟩

/-- Rows times weights: entry (b, n, d) of x · w. -/
def proj (x : SX.Idx → EReal) (w : SW.Idx → EReal) (b : Fin 4) (n : Fin 4096) (d : Fin 1024) : EReal :=
  ∑ k : Fin 1024, x (ix3 b n k) * w (ix2 k d)

/-- The gate: the pointwise product of the two query projections. -/
def query (xr xi : SX.Idx → EReal) (wqr wqi : SW.Idx → EReal) (b : Fin 4) (n : Fin 4096) (d : Fin 1024) : EReal :=
  proj xr wqr b n d * proj xi wqi b n d

/-- The key-value product of batch b, reduced over the whole sequence. -/
def kv (xr xi : SX.Idx → EReal) (wk wv : SW.Idx → EReal) (b : Fin 4) (d e : Fin 1024) : EReal :=
  ∑ n : Fin 4096, proj xr wk b n d * proj xi wv b n e

/-- The result at coordinates. -/
def Gc (xr xi : SX.Idx → EReal) (wqr wqi wk wv : SW.Idx → EReal) (b : Fin 4) (n : Fin 4096) (e : Fin 1024) : EReal :=
  ∑ d : Fin 1024, query xr xi wqr wqi b n d * kv xr xi wk wv b d e

/-- The result as one function of the six argument arrays. -/
def G (xr xi : SX.Idx → EReal) (wqr wqi wk wv : SW.Idx → EReal) : SX.Idx → EReal :=
  fun i => Gc xr xi wqr wqi wk wv (i 0) (i 1) (i 2)

theorem G_ix3 (xr xi : SX.Idx → EReal) (wqr wqi wk wv : SW.Idx → EReal) (b : Fin 4) (n : Fin 4096) (e : Fin 1024) :
    G xr xi wqr wqi wk wv (ix3 b n e) = Gc xr xi wqr wqi wk wv b n e := rfl

end Cert.Spec

end
-- ==== Proof.LibBlockedSum.lean ====
/-
  A finite sum over `n · B` consecutive positions, cut into `n` runs of `B` positions each: in any commutative additive
  monoid (the extended reals among them: no subtraction, no finiteness)

      Σ_{k < n·B} g k  =  Σ_{s < n} Σ_{j < B} g (B·s + j).

  This is the law by which a contraction accumulated run by run — a matrix product whose contracted axis is walked in
  blocks, each block's partial product added to a running total — is the one whole contraction.
-/
import Mathlib.Algebra.BigOperators.Fin
import Mathlib.Algebra.BigOperators.Intervals

namespace Idealize.ShloMosaic.BlockedSum

variable {M : Type*} [AddCommMonoid M]

/-- Over `Finset.range`: the first `n · B` positions are `n` runs of `B`. -/
theorem sum_range_blocks (B : ℕ) (g : ℕ → M) : ∀ n : ℕ,
    ∑ k ∈ Finset.range (n * B), g k = ∑ s ∈ Finset.range n, ∑ j ∈ Finset.range B, g (B * s + j)
  | 0 => by simp
  | n + 1 => by
    rw [Nat.succ_mul, Finset.sum_range_add, sum_range_blocks B g n, Finset.sum_range_succ, Nat.mul_comm n B]

/-- The same with the positions and the positions inside a run as `Fin` indices: the form a contraction over a
    coordinate of a shape takes. -/
theorem sum_fin_blocks (n B : ℕ) (g : ℕ → M) :
    ∑ k : Fin (n * B), g k.val = ∑ s ∈ Finset.range n, ∑ j : Fin B, g (B * s + j.val) := by
  rw [Fin.sum_univ_eq_sum_range (fun k => g k) (n * B), sum_range_blocks B g n]
  refine Finset.sum_congr rfl fun s _ => ?_
  exact (Fin.sum_univ_eq_sum_range (fun j => g (B * s + j)) B).symm

end Idealize.ShloMosaic.BlockedSum
-- ==== Proof.SumBlocks.lean ====
/-
  Adding tile by tile is adding everything.

  The sequence axis of 4096 rows is walked in 16 tiles of 256 rows. A running total is set, at the first tile, to zero
  plus that tile's sum, and every later tile adds its own sum to it. After the last tile the total is the sum over all
  4096 rows. Only the laws of a commutative additive monoid are used, so the statement holds on the extended reals as it
  stands: no subtraction, no finiteness.
-/
import Mathlib.Algebra.BigOperators.Fin
import Mathlib.Algebra.BigOperators.Intervals
import proofs.«173808_j83949430767982_2_alg».proof.Proof.LibBlockedSum

open scoped BigOperators

namespace Cert.SumBlocks

variable {M : Type*} [AddCommMonoid M]

/-- The running total after tile `s`: the first tile starts from zero, every later tile adds to what is there. -/
def accUpTo (c : ℕ → M) : ℕ → M
  | 0 => 0 + c 0
  | (s + 1) => accUpTo c s + c (s + 1)

/-- The running total after tile `s` is the sum of the tiles `0, …, s`. -/
theorem accUpTo_eq_sum (c : ℕ → M) : ∀ s : ℕ, accUpTo c s = ∑ r ∈ Finset.range (s + 1), c r
  | 0 => by rw [accUpTo, zero_add, Finset.sum_range_one]
  | (s + 1) => by rw [accUpTo, accUpTo_eq_sum c s, Finset.sum_range_succ _ (s + 1)]

/-- A function on the 4096 rows, continued by zero to all naturals. -/
def ext (g : Fin 4096 → M) (k : ℕ) : M := if h : k < 4096 then g ⟨k, h⟩ else 0

theorem ext_of_lt (g : Fin 4096 → M) (k : ℕ) (h : k < 4096) : ext g k = g ⟨k, h⟩ := dif_pos h

/-- The 16 tiles of 256 rows are the 4096 rows: row `256·s + j` is row `j` of tile `s`. -/
theorem tiles_eq_whole (g : Fin 4096 → M) :
    (∑ s : Fin 16, ∑ j : Fin 256, g ⟨256 * s.val + j.val, by omega⟩) = ∑ n : Fin 4096, g n := by
  have hw : ∑ n : Fin 4096, g n = ∑ k : Fin (16 * 256), ext g k.val :=
    Finset.sum_congr rfl fun k _ => (ext_of_lt g k.val k.isLt).symm
  rw [hw, Idealize.ShloMosaic.BlockedSum.sum_fin_blocks 16 256 (ext g),
    ← Fin.sum_univ_eq_sum_range (fun s => ∑ j : Fin 256, ext g (256 * s + j.val)) 16]
  exact Finset.sum_congr rfl fun s _ => Finset.sum_congr rfl fun j _ => (ext_of_lt g _ (by omega)).symm

/-- The running total over the 16 tile sums, after the last tile, is the sum over all 4096 rows. -/
theorem acc15_eq_whole (g : Fin 4096 → M) :
    accUpTo (fun s => if h : s < 16 then ∑ j : Fin 256, g ⟨256 * s + j.val, by omega⟩ else 0) 15
      = ∑ n : Fin 4096, g n := by
  rw [accUpTo_eq_sum, ← tiles_eq_whole g]
  refine (Fin.sum_univ_eq_sum_range
    (fun s => if h : s < 16 then ∑ j : Fin 256, g ⟨256 * s + j.val, by omega⟩ else 0) 16).symm.trans ?_
  exact Finset.sum_congr rfl fun s _ => dif_pos s.isLt

end Cert.SumBlocks
-- ==== Proof.KI.Acc0.lean ====
/-
  Region 0 point by point, on the extended reals.

  After point t (batch t / 16, tile t mod 16) the gate output's buffer holds the specification's gate at the tile's
  256 rows. The accumulator holds, on the first tile of a batch, zero plus that tile's key-value product, and on a
  later tile what the tile before left plus this tile's product: by induction on the point it is the running total of
  the tiles 0 … t mod 16 of the batch, and after the last tile the sum over all 4096 rows of the batch, which is the
  specification's key-value product. The last tile writes that total, narrowed (the identity here), to the key-value
  output.
-/
import proofs.«173808_j83949430767982_2_alg».proof.Proof.KI.Pieces0
import proofs.«173808_j83949430767982_2_alg».proof.Proof.KI.Value0
import proofs.«173808_j83949430767982_2_alg».proof.Proof.KI.Blocks0
import proofs.«173808_j83949430767982_2_alg».proof.Proof.Spec
import proofs.«173808_j83949430767982_2_alg».proof.Proof.SumBlocks

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- The arrays as the region finds them, per core, on the extended reals.
variable (V : (c : Dev nD) → (b : Ref sig .tc) → Buf (Elt Ideal) ((c : Thread nD τ).loc b))

/-! ## The six input arrays, as functions of an index -/

/-- x_real. -/
abbrev aXr (c : Dev nD) : Cert.Spec.SX.Idx → EReal := V c main_arg0
/-- x_imag. -/
abbrev aXi (c : Dev nD) : Cert.Spec.SX.Idx → EReal := V c main_arg1
/-- The key weights, as the region finds them. -/
abbrev aWk (c : Dev nD) : Cert.Spec.SW.Idx → EReal := V c main_v0
/-- The value weights. -/
abbrev aWv (c : Dev nD) : Cert.Spec.SW.Idx → EReal := V c main_v1
/-- The real query weights. -/
abbrev aWqr (c : Dev nD) : Cert.Spec.SW.Idx → EReal := V c main_v2
/-- The imaginary query weights. -/
abbrev aWqi (c : Dev nD) : Cert.Spec.SW.Idx → EReal := V c main_v3

/-! ## The input blocks at an index -/

theorem iblk0_0_apply (c : Dev nD) (t : Fin cfg0.N) (r : Fin 256) (k : Fin 1024) :
    iblk0 V c 0 t (ix3 (0 : Fin 1) r k) = aXr V c (ix3 (batchOf t) (rowOf t r) k) :=
  blk0_0_read (V c main_arg0) t r k
theorem iblk0_1_apply (c : Dev nD) (t : Fin cfg0.N) (r : Fin 256) (k : Fin 1024) :
    iblk0 V c 1 t (ix3 (0 : Fin 1) r k) = aXi V c (ix3 (batchOf t) (rowOf t r) k) :=
  blk0_1_read (V c main_arg1) t r k
theorem iblk0_2_apply (c : Dev nD) (t : Fin cfg0.N) (k d : Fin 1024) : iblk0 V c 2 t (ix2 k d) = aWk V c (ix2 k d) :=
  blk0_2_read (V c main_v0) t k d
theorem iblk0_3_apply (c : Dev nD) (t : Fin cfg0.N) (k d : Fin 1024) : iblk0 V c 3 t (ix2 k d) = aWv V c (ix2 k d) :=
  blk0_3_read (V c main_v1) t k d
theorem iblk0_4_apply (c : Dev nD) (t : Fin cfg0.N) (k d : Fin 1024) : iblk0 V c 4 t (ix2 k d) = aWqr V c (ix2 k d) :=
  blk0_4_read (V c main_v2) t k d
theorem iblk0_5_apply (c : Dev nD) (t : Fin cfg0.N) (k d : Fin 1024) : iblk0 V c 5 t (ix2 k d) = aWqi V c (ix2 k d) :=
  blk0_5_read (V c main_v3) t k d

/-! ## The payloads of the blocks at point t -/

/-- The gate of point t's tile is the specification's gate at the tile's rows. -/
theorem pay6_at (c : Dev nD) (t : Fin cfg0.N) (r : Fin 256) (d : Fin 1024) :
    k0_pay6 (F := Ideal) (iblk0 V c 0 t) (iblk0 V c 1 t) (iblk0 V c 4 t) (iblk0 V c 5 t) (ix3 (0 : Fin 1) r d)
      = Cert.Spec.query (aXr V c) (aXi V c) (aWqr V c) (aWqi V c) (batchOf t) (rowOf t r) d := by
  refine (k0_pay6_apply (iblk0 V c 0 t) (iblk0 V c 1 t) (iblk0 V c 4 t) (iblk0 V c 5 t) r d).trans ?_
  unfold Cert.Spec.query Cert.Spec.proj
  simp only [iblk0_0_apply, iblk0_1_apply, iblk0_4_apply, iblk0_5_apply]

/-- The key-value product of point t's tile: the sum over the tile's 256 rows. -/
theorem pay7_at (c : Dev nD) (t : Fin cfg0.N) (d e : Fin 1024) :
    k0_pay7 (F := Ideal) (iblk0 V c 0 t) (iblk0 V c 1 t) (iblk0 V c 2 t) (iblk0 V c 3 t) (ix2 d e)
      = ∑ r : Fin 256, Cert.Spec.proj (aXr V c) (aWk V c) (batchOf t) (rowOf t r) d
          * Cert.Spec.proj (aXi V c) (aWv V c) (batchOf t) (rowOf t r) e := by
  refine (k0_pay7_apply (iblk0 V c 0 t) (iblk0 V c 1 t) (iblk0 V c 2 t) (iblk0 V c 3 t) d e).trans ?_
  unfold Cert.Spec.proj
  simp only [iblk0_0_apply, iblk0_1_apply, iblk0_2_apply, iblk0_3_apply]

/-! ## After each point -/

/-- The key-value product of tile s of batch b, as the sum over the tile's rows; zero past the last tile. -/
def tileSum (c : Dev nD) (b : Fin 4) (d e : Fin 1024) (s : ℕ) : EReal :=
  if h : s < 16 then ∑ j : Fin 256, Cert.Spec.proj (aXr V c) (aWk V c) b ⟨256 * s + j.val, by omega⟩ d
      * Cert.Spec.proj (aXi V c) (aWv V c) b ⟨256 * s + j.val, by omega⟩ e
  else 0

theorem pay7_tile (c : Dev nD) (t : Fin cfg0.N) (d e : Fin 1024) :
    k0_pay7 (F := Ideal) (iblk0 V c 0 t) (iblk0 V c 1 t) (iblk0 V c 2 t) (iblk0 V c 3 t) (ix2 d e)
      = tileSum V c (batchOf t) d e (t.val % 16) := by
  rw [pay7_at]
  unfold tileSum
  rw [dif_pos (Nat.mod_lt _ (by decide))]

/-- The gate output's buffer after point t holds the specification's gate at the tile's rows. -/
theorem gate0_at (c : Dev nD) (t : Fin cfg0.N) (r : Fin 256) (d : Fin 1024) :
    (outsAt0 V c t.val t.isLt).1 (ix3 (0 : Fin 1) r d)
      = Cert.Spec.query (aXr V c) (aXi V c) (aWqr V c) (aWqi V c) (batchOf t) (rowOf t r) d := by
  by_cases h0 : t.val % 16 = 0
  · have h1 : ¬t.val % 16 = 15 := by omega
    rw [outsAt0_A V c t h0 h1]
    dsimp only
    rw [piece0_A_6]
    exact pay6_at V c t r d
  · by_cases h1 : t.val % 16 = 15
    · rw [outsAt0_C V c t h0 h1]
      dsimp only
      rw [piece0_C_6]
      exact pay6_at V c t r d
    · rw [outsAt0_B V c t h0 h1]
      dsimp only
      rw [piece0_B_6]
      exact pay6_at V c t r d

/-- On the first tile of a batch the accumulator ends at zero plus the tile's product. -/
theorem acc0_first (c : Dev nD) (t : Fin cfg0.N) (h0 : t.val % 16 = 0) (d e : Fin 1024) :
    (outsAt0 V c t.val t.isLt).2.2 (ix2 d e) = 0 + tileSum V c (batchOf t) d e (t.val % 16) := by
  have h1 : ¬t.val % 16 = 15 := by omega
  rw [outsAt0_A V c t h0 h1]
  dsimp only
  rw [spiece0_A_0, k0_pay1_apply, k0_pay3_apply, pay7_tile]

/-- On a later tile it ends at what the tile before left plus the tile's product. -/
theorem acc0_next (c : Dev nD) (t : Fin cfg0.N) (h0 : ¬t.val % 16 = 0) (d e : Fin 1024) :
    (outsAt0 V c t.val t.isLt).2.2 (ix2 d e)
      = (outsAt0 V c (t.val - 1) (Nat.lt_of_le_of_lt (Nat.sub_le _ _) t.isLt)).2.2 (ix2 d e)
        + tileSum V c (batchOf t) d e (t.val % 16) := by
  by_cases h1 : t.val % 16 = 15
  · rw [outsAt0_C V c t h0 h1]
    dsimp only
    rw [spiece0_C_0, k0_pay1_apply, pay7_tile]
  · rw [outsAt0_B V c t h0 h1]
    dsimp only
    rw [spiece0_B_0, k0_pay1_apply, pay7_tile]

/-- On the last tile the key-value output's buffer holds the accumulator as it has just been updated. -/
theorem kvout0_last (c : Dev nD) (t : Fin cfg0.N) (h1 : t.val % 16 = 15) (d e : Fin 1024) :
    (outsAt0 V c t.val t.isLt).2.1 (ix3 (0 : Fin 1) d e) = (outsAt0 V c t.val t.isLt).2.2 (ix2 d e) := by
  have h0 : ¬t.val % 16 = 0 := by omega
  rw [outsAt0_C V c t h0 h1]
  dsimp only
  rw [piece0_C_7, spiece0_C_0, k0_pay2_apply]

/-! ## The accumulator in closed form -/

/-- After point n the accumulator holds the running total of the tiles 0 … n mod 16 of the point's batch: by
    induction on the point. A first tile starts again from zero; a later tile is in the batch of the tile before. -/
theorem acc0_eq (c : Dev nD) : ∀ (n : ℕ) (h : n < cfg0.N) (d e : Fin 1024),
    (outsAt0 V c n h).2.2 (ix2 d e)
      = Cert.SumBlocks.accUpTo (tileSum V c (batchOf ⟨n, h⟩) d e) (n % 16)
  | 0, h, d, e => acc0_first V c ⟨0, h⟩ rfl d e
  | n + 1, h, d, e => by
    by_cases h0 : (n + 1) % 16 = 0
    · refine (acc0_first V c ⟨n + 1, h⟩ h0 d e).trans ?_
      show 0 + tileSum V c (batchOf ⟨n + 1, h⟩) d e ((n + 1) % 16)
        = Cert.SumBlocks.accUpTo (tileSum V c (batchOf ⟨n + 1, h⟩) d e) ((n + 1) % 16)
      rw [h0]
      rfl
    · refine (acc0_next V c ⟨n + 1, h⟩ h0 d e).trans ?_
      show (outsAt0 V c n _).2.2 (ix2 d e) + tileSum V c (batchOf ⟨n + 1, h⟩) d e ((n + 1) % 16)
        = Cert.SumBlocks.accUpTo (tileSum V c (batchOf ⟨n + 1, h⟩) d e) ((n + 1) % 16)
      rw [acc0_eq c n (Nat.lt_of_succ_lt h) d e]
      have hb : batchOf ⟨n, Nat.lt_of_succ_lt h⟩ = batchOf ⟨n + 1, h⟩ := Fin.ext (by
        show n / 16 = (n + 1) / 16
        omega)
      have hs : (n + 1) % 16 = n % 16 + 1 := by omega
      rw [hb, hs]
      rfl

/-- After the last tile of a batch the accumulator holds the batch's whole key-value product. -/
theorem acc0_last (c : Dev nD) (t : Fin cfg0.N) (h1 : t.val % 16 = 15) (d e : Fin 1024) :
    (outsAt0 V c t.val t.isLt).2.2 (ix2 d e)
      = Cert.Spec.kv (aXr V c) (aXi V c) (aWk V c) (aWv V c) (batchOf t) d e := by
  rw [acc0_eq V c t.val t.isLt d e, h1]
  exact Cert.SumBlocks.acc15_eq_whole
    (fun n : Fin 4096 => Cert.Spec.proj (aXr V c) (aWk V c) (batchOf t) n d * Cert.Spec.proj (aXi V c) (aWv V c) (batchOf t) n e)

/-- So on the last tile the key-value output's buffer holds the batch's whole key-value product. -/
theorem kvout0_at (c : Dev nD) (t : Fin cfg0.N) (h1 : t.val % 16 = 15) (d e : Fin 1024) :
    (outsAt0 V c t.val t.isLt).2.1 (ix3 (0 : Fin 1) d e)
      = Cert.Spec.kv (aXr V c) (aXi V c) (aWk V c) (aWv V c) (batchOf t) d e :=
  (kvout0_last V c t h1 d e).trans (acc0_last V c t h1 d e)

/-! ## The two facts the final arrays are read from -/

/-- The gate output's buffer after point t, at row r and column d of the block. -/
theorem gate0 (V : (c : Dev nD) → (b : Ref sig .tc) → Buf (Elt Ideal) ((c : Thread nD τ).loc b)) (c : Dev nD)
    (t : Fin cfg0.N) (r : Fin 256) (d : Fin 1024) :
    (outsAt0 (F := Ideal) V c t.val t.isLt).1 (ix3 (0 : Fin 1) r d)
      = Cert.Spec.query (V c main_arg0) (V c main_arg1) (V c main_v2) (V c main_v3) (batchOf t) (rowOf t r) d :=
  gate0_at V c t r d

/-- The key-value output's buffer after the last tile of a batch, at (d, e) of the block. -/
theorem kvout0 (V : (c : Dev nD) → (b : Ref sig .tc) → Buf (Elt Ideal) ((c : Thread nD τ).loc b)) (c : Dev nD)
    (t : Fin cfg0.N) (h15 : t.val % 16 = 15) (d e : Fin 1024) :
    (outsAt0 (F := Ideal) V c t.val t.isLt).2.1 (ix3 (0 : Fin 1) d e)
      = Cert.Spec.kv (V c main_arg0) (V c main_arg1) (V c main_v0) (V c main_v1) (batchOf t) d e :=
  kvout0_at V c t h15 d e

end Cert.KernelIdeal.Hand

end
-- ==== Proof.KI.Final0.lean ====
import proofs.«173808_j83949430767982_2_alg».proof.Proof.KI.Region0
import proofs.«173808_j83949430767982_2_alg».proof.Proof.KI.Blocks0
import proofs.«173808_j83949430767982_2_alg».proof.Proof.KI.Acc0
import proofs.«173808_j83949430767982_2_alg».proof.Proof.Spec
import Idealize.ShloMosaic.Lib.Pipeline.Value

/-!
# The first pipeline's two result arrays as functions of the arrays it reads

The gate array: point t writes rows 256 (t % 16) .. 256 (t % 16) + 255 of batch t / 16, each entry the
product of the two query projections; the sixty-four blocks tile the array.  The key-value array: only
the last tile of each batch writes, and it writes the whole matrix of its batch, the key-value product
summed over the whole sequence; the four blocks tile the array.  Given what a point leaves in its two
output blocks, entry by entry, each array ends as the corresponding function of the argument arrays.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The gate array -/

/-- If at every point the gate block holds the gate at its rows, what point t writes back is block t of
    the gate as a function of the whole array's index. -/
theorem flushed0_6_eq_of (V : (c : Dev nD) → (b : Ref sig .tc) → Buf (Elt Ideal) ((c : Thread nD τ).loc b)) (c : Dev nD)
    (hgate : ∀ (t : Fin cfg0.N) (r : Fin 256) (d : Fin 1024),
      (outsAt0 (F := Ideal) V c t.val t.isLt).1 (ix3 (0 : Fin 1) r d) = Cert.Spec.query (V c main_arg0) (V c main_arg1) (V c main_v2) (V c main_v3) (batchOf t) (rowOf t r) d)
    (t : Fin cfg0.N) :
    (dat0 (F := Ideal) V c).flushed 6 t
      = ((cfg0.win 6).blk t).view.read (Elt Ideal) (fun i => Cert.Spec.query (V c main_arg0) (V c main_arg1) (V c main_v2) (V c main_v3) (i 0) (i 1) (i 2)) := by
  show (cfg0.win 6).cut (grid0.coords t) ((dat0 V c).after 6 t) = _
  rw [after0_6]
  funext j
  obtain ⟨u, r, d, rfl⟩ : ∃ (u : Fin 1) (r : Fin 256) (d : Fin 1024), j = ix3 u r d := ⟨j 0, j 1, j 2, eq_ix3 j⟩
  obtain rfl : u = 0 := Subsingleton.elim _ _
  refine (hgate t r d).trans ?_
  exact (blk0_6_read (F := Ideal) (fun i => Cert.Spec.query (V c main_arg0) (V c main_arg1) (V c main_v2) (V c main_v3) (i 0) (i 1) (i 2)) t r d).symm

/-- The sixty-four gate blocks tile the gate array, so it ends as the gate at every index. -/
theorem final0_6_of (V : (c : Dev nD) → (b : Ref sig .tc) → Buf (Elt Ideal) ((c : Thread nD τ).loc b)) (c : Dev nD)
    (hgate : ∀ (t : Fin cfg0.N) (r : Fin 256) (d : Fin 1024),
      (outsAt0 (F := Ideal) V c t.val t.isLt).1 (ix3 (0 : Fin 1) r d) = Cert.Spec.query (V c main_arg0) (V c main_arg1) (V c main_v2) (V c main_v3) (batchOf t) (rowOf t r) d) :
    (dat0 (F := Ideal) V c).arrAt 6 cfg0.N = fun i => Cert.Spec.query (V c main_arg0) (V c main_arg1) (V c main_v2) (V c main_v3) (i 0) (i 1) (i 2) :=
  (dat0 (F := Ideal) V c).arrAt_eq_of_cover 6 (fun i => Cert.Spec.query (V c main_arg0) (V c main_arg1) (V c main_v2) (V c main_v3) (i 0) (i 1) (i 2))
    (fun t _ => flushed0_6_eq_of V c hgate t) cover0_6

/-! ## The key-value array -/

/-- If on the last tile of each batch the key-value block holds the batch's key-value product, what such
    a point writes back is its block of the key-value product as a function of the whole array's index. -/
theorem flushed0_7_eq_of (V : (c : Dev nD) → (b : Ref sig .tc) → Buf (Elt Ideal) ((c : Thread nD τ).loc b)) (c : Dev nD)
    (hkv : ∀ (t : Fin cfg0.N) (h15 : t.val % 16 = 15) (d e : Fin 1024),
      (outsAt0 (F := Ideal) V c t.val t.isLt).2.1 (ix3 (0 : Fin 1) d e) = Cert.Spec.kv (V c main_arg0) (V c main_arg1) (V c main_v0) (V c main_v1) (batchOf t) d e)
    (t : Fin cfg0.N) (h15 : t.val % 16 = 15) :
    (dat0 (F := Ideal) V c).flushed 7 t
      = ((cfg0.win 7).blk t).view.read (Elt Ideal) (fun i => Cert.Spec.kv (V c main_arg0) (V c main_arg1) (V c main_v0) (V c main_v1) (i 0) (i 1) (i 2)) := by
  show (cfg0.win 7).cut (grid0.coords t) ((dat0 V c).after 7 t) = _
  rw [after0_7]
  funext j
  obtain ⟨u, d, e, rfl⟩ : ∃ (u : Fin 1) (d e : Fin 1024), j = ix3 u d e := ⟨j 0, j 1, j 2, eq_ix3 j⟩
  obtain rfl : u = 0 := Subsingleton.elim _ _
  refine (hkv t h15 d e).trans ?_
  exact (blk0_7_read (F := Ideal) (fun i => Cert.Spec.kv (V c main_arg0) (V c main_arg1) (V c main_v0) (V c main_v1) (i 0) (i 1) (i 2)) t d e).symm

/-- Only the last tile of a batch writes the key-value block back, and the four such blocks tile the
    key-value array, so it ends as the key-value product at every index. -/
theorem final0_7_of (V : (c : Dev nD) → (b : Ref sig .tc) → Buf (Elt Ideal) ((c : Thread nD τ).loc b)) (c : Dev nD)
    (hkv : ∀ (t : Fin cfg0.N) (h15 : t.val % 16 = 15) (d e : Fin 1024),
      (outsAt0 (F := Ideal) V c t.val t.isLt).2.1 (ix3 (0 : Fin 1) d e) = Cert.Spec.kv (V c main_arg0) (V c main_arg1) (V c main_v0) (V c main_v1) (batchOf t) d e) :
    (dat0 (F := Ideal) V c).arrAt 7 cfg0.N = fun i => Cert.Spec.kv (V c main_arg0) (V c main_arg1) (V c main_v0) (V c main_v1) (i 0) (i 1) (i 2) :=
  (dat0 (F := Ideal) V c).arrAt_eq_of_cover 7 (fun i => Cert.Spec.kv (V c main_arg0) (V c main_arg1) (V c main_v0) (V c main_v1) (i 0) (i 1) (i 2))
    (fun t hf => flushed0_7_eq_of V c hkv t ((flush0_7 t).mp hf)) cover0_7

/-! ## With what each point leaves -/

/-- The gate array after the run. -/
theorem final0_6 (V : (c : Dev nD) → (b : Ref sig .tc) → Buf (Elt Ideal) ((c : Thread nD τ).loc b)) (c : Dev nD) :
    (dat0 (F := Ideal) V c).arrAt 6 cfg0.N = fun i => Cert.Spec.query (V c main_arg0) (V c main_arg1) (V c main_v2) (V c main_v3) (i 0) (i 1) (i 2) :=
  final0_6_of V c (gate0 V c)

/-- The key-value array after the run. -/
theorem final0_7 (V : (c : Dev nD) → (b : Ref sig .tc) → Buf (Elt Ideal) ((c : Thread nD τ).loc b)) (c : Dev nD) :
    (dat0 (F := Ideal) V c).arrAt 7 cfg0.N = fun i => Cert.Spec.kv (V c main_arg0) (V c main_arg1) (V c main_v0) (V c main_v1) (i 0) (i 1) (i 2) :=
  final0_7_of V c (kvout0 V c)

end Cert.KernelIdeal.Hand

end
-- ==== Proof.KI.Value1.lean ====
import proofs.«173808_j83949430767982_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The second pipeline's payload at an index, over the extended reals

The body's one stored value is the matrix product of its two input blocks: each block of shape
[1,1024,1024] is read as a 1024 x 1024 matrix, the two are multiplied into a zero accumulator, and the
product is read back as a block of shape [1,1024,1024].  At the entry (0, p, q) this is the sum over k
of the first block at (0, p, k) times the second at (0, k, q).
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

/-! ## The operand indices of the product

The product contracts axis 1 of the left matrix with axis 0 of the right one; the result's rows are the
left matrix's and its columns the right matrix's. -/

/-- The left operand's row is the result's row. -/
theorem prod_lhs_row (j : S1024x1024.Idx) (κ : dot_S1024x1024_S1024x1024_S1024x1024_1_0_0_1_n_n.contr.Idx) :
    (dot_S1024x1024_S1024x1024_S1024x1024_1_0_0_1_n_n.lhsIdx j κ 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The left operand's column is the contraction index. -/
theorem prod_lhs_col (j : S1024x1024.Idx) (κ : dot_S1024x1024_S1024x1024_S1024x1024_1_0_0_1_n_n.contr.Idx) :
    (dot_S1024x1024_S1024x1024_S1024x1024_1_0_0_1_n_n.lhsIdx j κ 1).val = (κ ⟨0, by decide⟩).val :=
  dot_S1024x1024_S1024x1024_S1024x1024_1_0_0_1_n_n.lhsIdx_val_of_single rfl j κ

/-- The right operand's row is the contraction index. -/
theorem prod_rhs_row (j : S1024x1024.Idx) (κ : dot_S1024x1024_S1024x1024_S1024x1024_1_0_0_1_n_n.contr.Idx) :
    (dot_S1024x1024_S1024x1024_S1024x1024_1_0_0_1_n_n.rhsIdx j κ 0).val = (κ ⟨0, by decide⟩).val :=
  dot_S1024x1024_S1024x1024_S1024x1024_1_0_0_1_n_n.rhsIdx_val_of_single rfl j κ

/-- The right operand's column is the result's column. -/
theorem prod_rhs_col (j : S1024x1024.Idx) (κ : dot_S1024x1024_S1024x1024_S1024x1024_1_0_0_1_n_n.contr.Idx) :
    (dot_S1024x1024_S1024x1024_S1024x1024_1_0_0_1_n_n.rhsIdx j κ 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-! ## The product into a zero accumulator, at an entry -/

/-- Entry (p, q) of the product of two 1024 x 1024 matrices into the zero accumulator is the sum over k
    of l (p, k) * r (k, q): the accumulator contributes zero, and the one-axis contraction index is its
    coordinate. -/
theorem prod_zero_apply (l r : FVec Ideal S1024x1024 .bf16) (p q : Fin 1024) :
    matmul (F := Ideal) dot_S1024x1024_S1024x1024_S1024x1024_1_0_0_1_n_n none l r
        (constant (F := Ideal) S1024x1024 .f32 0x00000000#32) (ix2 p q)
      = ∑ k : Fin 1024, l (ix2 p k) * r (ix2 k q) := by
  refine (Ideal.matmul_constant_zero_apply dot_S1024x1024_S1024x1024_S1024x1024_1_0_0_1_n_n none l r (ix2 p q)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k :=
    funext fun a => Fin.ext (by
      match a with
      | ⟨0, _⟩ => exact prod_lhs_row _ _
      | ⟨1, _⟩ => exact (prod_lhs_col _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q :=
    funext fun a => Fin.ext (by
      match a with
      | ⟨0, _⟩ => exact (prod_rhs_row _ _).trans hk
      | ⟨1, _⟩ => exact prod_rhs_col _ _)
  rw [el, er]

/-! ## The payload at an entry -/

/-- Entry (0, p, q) of the stored block: the two blocks lose their leading unit axis, are multiplied, and
    the product regains the unit axis. -/
theorem k1_pay1_apply (x0 x1 : Vec Ideal S1x1024x1024 .bf16) (p q : Fin 1024) :
    k1_pay1 (F := Ideal) x0 x1 (ix3 (0 : Fin 1) p q)
      = ∑ k : Fin 1024, x0 (ix3 (0 : Fin 1) p k) * x1 (ix3 (0 : Fin 1) k q) := by
  unfold k1_pay1
  refine (shapeCast_ab_1ab_apply _ _ (0 : Fin 1) p q).trans ?_
  refine (prod_zero_apply _ _ p q).trans ?_
  refine Finset.sum_congr rfl fun k _ => ?_
  rw [shapeCast_1ab_ab_apply, shapeCast_1ab_ab_apply]

end Cert.KernelIdeal.Hand

end
-- ==== Proof.KI.Final1.lean ====
import proofs.«173808_j83949430767982_2_alg».proof.Proof.KI.Region1
import proofs.«173808_j83949430767982_2_alg».proof.Proof.KI.Value1
import Idealize.ShloMosaic.Lib.Pipeline.Value

/-!
# The second pipeline's result as one function of the two arrays it reads

Grid point t of the 4 x 4 grid has batch b = t / 4 and row tile m = t % 4.  It reads the query block
(b, m, 0) and the key-value block (b, 0, 0), both of shape [1,1024,1024], and writes the result block
(b, m, 0).  Entry (0, p, e) of what it writes is the sum over d of the query array at
(b, 1024 m + p, d) times the key-value array at (b, d, e); the sixteen result blocks tile the result
array, so the array ends as the batched matrix product of the two.
-/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The batched product -/

/-- Entry (b, n, e) of the result is the sum over d of q (b, n, d) * kv (b, d, e). -/
def G1 (q : S4x4096x1024.Idx → EReal) (kv : S4x1024x1024.Idx → EReal) : S4x4096x1024.Idx → EReal :=
  fun i => ∑ d : Fin 1024, q (ix3 (i 0 : Fin 4) (i 1 : Fin 4096) d) * kv (ix3 (i 0 : Fin 4) d (i 2 : Fin 1024))

theorem G1_ix3 (q : S4x4096x1024.Idx → EReal) (kv : S4x1024x1024.Idx → EReal) (b : Fin 4) (n : Fin 4096) (e : Fin 1024) :
    G1 q kv (ix3 b n e) = ∑ d : Fin 1024, q (ix3 b n d) * kv (ix3 b d e) := rfl

/-! ## The block indices over the grid -/

/-- Where each window's block sits at each of the sixteen points: the query and the result blocks at
    (t / 4, t % 4, 0), the key-value block at (t / 4, 0, 0). -/
theorem idx_facts1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = t.val % 4 ∧ win1_2.index t (2 : Fin 3) = 0 :=
  (by decide +kernel : ∀ t : Fin grid1.N, _)

/-- There are sixteen points. -/
theorem lt16_1 (t : Fin cfg1.N) : t.val < 16 := lt_of_lt_of_eq t.isLt N_1

/-! ## One point's block, over plain blocks and arrays -/

/-- If the first block is rows 1024 m .. 1024 m + 1023 of batch b of the array A and the second block is
    batch b of the array B, the product block at (u, p, e) is the batched product of A and B at
    (b, 1024 m + p, e). -/
theorem blockprod1_apply (x0 x1 : Vec Ideal S1x1024x1024 .bf16)
    (A : S4x4096x1024.Idx → EReal) (B : S4x1024x1024.Idx → EReal) (b : Fin 4) (m : ℕ) (hm : m < 4)
    (h0 : ∀ (p k : Fin 1024) (hp : 1024 * m + p.val < 4096), x0 (ix3 (0 : Fin 1) p k) = A (ix3 b ⟨1024 * m + p.val, hp⟩ k))
    (h1 : ∀ k e : Fin 1024, x1 (ix3 (0 : Fin 1) k e) = B (ix3 b k e))
    (u : Fin 1) (p e : Fin 1024) (hp : 1024 * m + p.val < 4096) :
    k1_pay1 (F := Ideal) x0 x1 (ix3 u p e) = G1 A B (ix3 b ⟨1024 * m + p.val, hp⟩ e) := by
  obtain rfl : u = 0 := Subsingleton.elim _ _
  rw [k1_pay1_apply, G1_ix3]
  refine Finset.sum_congr rfl fun k _ => ?_
  rw [h0 p k hp, h1 k e]

/-! ## What a point writes back -/

/-- The query block at point t, entry (0, p, k), is the query array at (t / 4, 1024 (t % 4) + p, k). -/
theorem iblk1_0_apply (V : (c : Dev nD) → (b : Ref sig .tc) → Buf (Elt Ideal) ((c : Thread nD τ).loc b)) (c : Dev nD)
    (t : Fin cfg1.N) (p k : Fin 1024) (hp : 1024 * (t.val % 4) + p.val < 4096) :
    iblk1 V c 0 t (ix3 (0 : Fin 1) p k)
      = V c main_v4_0 (ix3 (⟨t.val / 4, by have := lt16_1 t; omega⟩ : Fin 4) ⟨1024 * (t.val % 4) + p.val, hp⟩ k) := by
  obtain ⟨e0, e1, e2, -⟩ := idx_facts1 t
  show V c main_v4_0 (((cfg1.win 0).blk t).view.emb (ix3 (0 : Fin 1) p k)) = _
  refine congrArg (V c main_v4_0) (funext fun a => Fin.ext ?_)
  match a with
  | ⟨0, _⟩ => show win1_0.index t (0 : Fin 3) * 1 + 1 * 0 = t.val / 4; omega
  | ⟨1, _⟩ => show win1_0.index t (1 : Fin 3) * 1024 + 1 * p.val = 1024 * (t.val % 4) + p.val; omega
  | ⟨2, _⟩ => show win1_0.index t (2 : Fin 3) * 1024 + 1 * k.val = k.val; omega

/-- The key-value block at point t, entry (0, k, e), is the key-value array at (t / 4, k, e). -/
theorem iblk1_1_apply (V : (c : Dev nD) → (b : Ref sig .tc) → Buf (Elt Ideal) ((c : Thread nD τ).loc b)) (c : Dev nD)
    (t : Fin cfg1.N) (k e : Fin 1024) :
    iblk1 V c 1 t (ix3 (0 : Fin 1) k e)
      = V c main_v4_1 (ix3 (⟨t.val / 4, by have := lt16_1 t; omega⟩ : Fin 4) k e) := by
  obtain ⟨-, -, -, e0, e1, e2, -⟩ := idx_facts1 t
  show V c main_v4_1 (((cfg1.win 1).blk t).view.emb (ix3 (0 : Fin 1) k e)) = _
  refine congrArg (V c main_v4_1) (funext fun a => Fin.ext ?_)
  match a with
  | ⟨0, _⟩ => show win1_1.index t (0 : Fin 3) * 1 + 1 * 0 = t.val / 4; omega
  | ⟨1, _⟩ => show win1_1.index t (1 : Fin 3) * 1024 + 1 * k.val = k.val; omega
  | ⟨2, _⟩ => show win1_1.index t (2 : Fin 3) * 1024 + 1 * e.val = e.val; omega

/-- What point t writes back is block t of the batched product of the two arrays as found on entry. -/
theorem flushed1_2_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (G1 (V c main_v4_0) (V c main_v4_1)) := by
  show (cfg1.win 2).cut (grid1.coords t) ((dat1 V c).after 2 t) = _
  rw [after1_2, out1_2_eq]
  have ht := lt16_1 t
  obtain ⟨-, -, -, -, -, -, e0, e1, e2⟩ := idx_facts1 t
  funext j
  obtain ⟨u, p, e, rfl⟩ : ∃ (u : Fin 1) (p e : Fin 1024), j = ix3 u p e := ⟨j 0, j 1, j 2, eq_ix3 j⟩
  have hp : 1024 * (t.val % 4) + p.val < 4096 := by have := p.isLt; omega
  refine (blockprod1_apply (iblk1 V c 0 t) (iblk1 V c 1 t) (V c main_v4_0) (V c main_v4_1)
    ⟨t.val / 4, by omega⟩ (t.val % 4) (by omega)
    (fun p k hp => iblk1_0_apply V c t p k hp) (fun k e => iblk1_1_apply V c t k e) u p e hp).trans ?_
  show G1 (V c main_v4_0) (V c main_v4_1) _ = G1 (V c main_v4_0) (V c main_v4_1) (((cfg1.win 2).blk t).view.emb (ix3 u p e))
  refine congrArg (G1 (V c main_v4_0) (V c main_v4_1)) (funext fun a => Fin.ext ?_)
  have hu : u.val = 0 := by omega
  match a with
  | ⟨0, _⟩ => show t.val / 4 = win1_2.index t (0 : Fin 3) * 1 + 1 * u.val; omega
  | ⟨1, _⟩ => show 1024 * (t.val % 4) + p.val = win1_2.index t (1 : Fin 3) * 1024 + 1 * p.val; omega
  | ⟨2, _⟩ => show e.val = win1_2.index t (2 : Fin 3) * 1024 + 1 * e.val; omega

/-! ## The result blocks tile the result array -/

/-- An index of the result array lies in point t's block iff each coordinate lies in the block's range. -/
theorem mem_blk1_2 (t : Fin cfg1.N) (i : S4x4096x1024.Idx) :
    i ∈ ((cfg1.win 2).blk t).view.set ↔ ∀ a : Fin 3, win1_2.index t a * S1x1024x1024.size a ≤ (i a).val
      ∧ (i a).val < win1_2.index t a * S1x1024x1024.size a + S1x1024x1024.size a := by
  show i ∈ ((View.whole main_v5).slice (win1_2.rect t)).set ↔ _
  rw [View.set_slice_whole, Rect.mem_set_unit]
  exact Iff.rfl

/-- Entry (b, n, e) lies in the block of point 4 b + n / 1024, and every point writes its block back. -/
theorem covered1_2 (i : S4x4096x1024.Idx) :
    ∃ t : Fin cfg1.N, (cfg1.win 2).flush t = true ∧ i ∈ ((cfg1.win 2).blk t).view.set := by
  have hi0 : (i 0).val < 4 := (i 0).isLt
  have hi1 : (i 1).val < 4096 := (i 1).isLt
  have hi2 : (i 2).val < 1024 := (i 2).isLt
  have hN : 4 * (i 0).val + (i 1).val / 1024 < cfg1.N := lt_of_lt_of_eq (by omega) N_1.symm
  obtain ⟨t, htv⟩ : ∃ t : Fin cfg1.N, t.val = 4 * (i 0).val + (i 1).val / 1024 := ⟨⟨_, hN⟩, rfl⟩
  obtain ⟨-, -, -, -, -, -, e0, e1, e2⟩ := idx_facts1 t
  refine ⟨t, flush1_2 t, ?_⟩
  rw [mem_blk1_2]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-! ## The result array after the run -/

/-- The result array ends as the batched product of the query array and the key-value array as found on
    entry. -/
theorem final1 (V : (c : Dev nD) → (b : Ref sig .tc) → Buf (Elt Ideal) ((c : Thread nD τ).loc b)) (c : Dev nD) :
    (dat1 (F := Ideal) V c).arrAt 2 cfg1.N = G1 (V c main_v4_0) (V c main_v4_1) :=
  (dat1 (F := Ideal) V c).arrAt_eq_of_cover 2 (G1 (V c main_v4_0) (V c main_v4_1))
    (fun t _ => flushed1_2_eq V c t) covered1_2

end Cert.KernelIdeal.Hand

end
-- ==== Proof.KI.Host0.lean ====
/-
  What the host stretch before the first region leaves, on the extended reals.

  Before the first region the program narrows the four weight matrices from f32 to bf16, one conversion each, into
  four new arrays. On the extended reals a change of float format is the identity, so each new array holds the
  weight matrix it was converted from: the narrowed key weights are the key weights, and likewise the value weights
  and the two query weights.
-/
import proofs.«173808_j83949430767982_2_alg».proof.Proof.Gen.KernelIdeal.Launch
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The narrowed key weights are the key weights. -/
theorem host_v0 (c : Dev nD) :
    (StableHlo.after (hostOps0 (F := Ideal)) ((fun b => m (c, b)) : Valuation τ sig (Elt Ideal)) (Proc.devRef .tc main_v0)
        : S1024x1024.Idx → EReal)
      = (m ((c : Thread nD τ).loc main_arg4) : S1024x1024.Idx → EReal) := by
  show StableHlo.after hostOps0 _ (Proc.devRef .tc main_v0) = _
  after_results
  rfl

/-- The narrowed value weights are the value weights. -/
theorem host_v1 (c : Dev nD) :
    (StableHlo.after (hostOps0 (F := Ideal)) ((fun b => m (c, b)) : Valuation τ sig (Elt Ideal)) (Proc.devRef .tc main_v1)
        : S1024x1024.Idx → EReal)
      = (m ((c : Thread nD τ).loc main_arg5) : S1024x1024.Idx → EReal) := by
  show StableHlo.after hostOps0 _ (Proc.devRef .tc main_v1) = _
  after_results
  rfl

/-- The narrowed real query weights are the real query weights. -/
theorem host_v2 (c : Dev nD) :
    (StableHlo.after (hostOps0 (F := Ideal)) ((fun b => m (c, b)) : Valuation τ sig (Elt Ideal)) (Proc.devRef .tc main_v2)
        : S1024x1024.Idx → EReal)
      = (m ((c : Thread nD τ).loc main_arg2) : S1024x1024.Idx → EReal) := by
  show StableHlo.after hostOps0 _ (Proc.devRef .tc main_v2) = _
  after_results
  rfl

/-- The narrowed imaginary query weights are the imaginary query weights. -/
theorem host_v3 (c : Dev nD) :
    (StableHlo.after (hostOps0 (F := Ideal)) ((fun b => m (c, b)) : Valuation τ sig (Elt Ideal)) (Proc.devRef .tc main_v3)
        : S1024x1024.Idx → EReal)
      = (m ((c : Thread nD τ).loc main_arg3) : S1024x1024.Idx → EReal) := by
  show StableHlo.after hostOps0 _ (Proc.devRef .tc main_v3) = _
  after_results
  rfl

end Cert.KernelIdeal.Hand

end
-- ==== Proof.KI.Bridge.lean ====
/-
  The result buffer after the run is the specification of the six argument arrays.

  The output region leaves in the result array the product, batch by batch, of the gate array by the key-value
  array. The key-value region left in the gate array the pointwise product of the two query projections, and in
  the key-value array the sum over the whole sequence of key times value — accumulated tile by tile from zero,
  which is the same sum since addition on the extended reals is commutative and associative. The weights the
  regions read are the host stretch's roundings of the argument weights, which at the exact instance are the
  argument weights themselves. Entry by entry this is the specification.
-/
import proofs.«173808_j83949430767982_2_alg».proof.Proof.KI.Run
import proofs.«173808_j83949430767982_2_alg».proof.Proof.KI.Final0
import proofs.«173808_j83949430767982_2_alg».proof.Proof.KI.Final1
import proofs.«173808_j83949430767982_2_alg».proof.Proof.KI.Host0
import proofs.«173808_j83949430767982_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The arrays the key-value region finds, in terms of the arguments. -/
theorem V1_arg0 (c : Dev nD) : V1 m c main_arg0 = m ((c : Thread nD τ).loc main_arg0) := W1_of_not_written m c main_arg0 (by decide)
theorem V1_arg1 (c : Dev nD) : V1 m c main_arg1 = m ((c : Thread nD τ).loc main_arg1) := W1_of_not_written m c main_arg1 (by decide)

/-- The result array after the run, as one function of the six arguments. -/
theorem result_eq (c : Dev nD) :
    (W3 m c (Proc.devRef .tc main_v5) : S4x4096x1024.Idx → EReal)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have h5 : W3 m c (Proc.devRef .tc main_v5) = (dat1 (V2 m) c).arrAt 2 cfg1.N := W3_arr m c 2
  have hq : V2 m c main_v4_0 = (dat0 (V1 m) c).arrAt 6 cfg0.N := W2_arr m c 6
  have hkv : V2 m c main_v4_1 = (dat0 (V1 m) c).arrAt 7 cfg0.N := W2_arr m c 7
  rw [h5, final1, hq, hkv, final0_6, final0_7]
  have e0 := V1_arg0 m c
  have e1 := V1_arg1 m c
  have ek : (V1 m c main_v0 : S1024x1024.Idx → EReal) = m ((c : Thread nD τ).loc main_arg4) := host_v0 m c
  have ev : (V1 m c main_v1 : S1024x1024.Idx → EReal) = m ((c : Thread nD τ).loc main_arg5) := host_v1 m c
  have eqr : (V1 m c main_v2 : S1024x1024.Idx → EReal) = m ((c : Thread nD τ).loc main_arg2) := host_v2 m c
  have eqi : (V1 m c main_v3 : S1024x1024.Idx → EReal) = m ((c : Thread nD τ).loc main_arg3) := host_v3 m c
  rw [e0, e1, ek, ev, eqr, eqi]
  funext i
  obtain ⟨b, n, e, rfl⟩ : ∃ (b : Fin 4) (n : Fin 4096) (e : Fin 1024), i = ix3 b n e := ⟨i 0, i 1, i 2, eq_ix3 i⟩
  rw [G1_ix3, Cert.Spec.G_ix3]
  rfl

end Cert.KernelIdeal.Hand

end
-- ==== Proof.RefIsSpec.lean ====
/-
  The reference program computes the specification.

  Read one operation at a time, the reference is: four products of rows with a weight matrix (each entry a sum over
  the 1024 columns of the row), the pointwise product of the first two, the product of the last two summed over
  the 4096 rows of a batch, and the product of the gate with that matrix summed over its 1024 rows. At an index
  with coordinates (b, n, e) these are, term for term, the sums the specification is made of; nothing is rearranged.
-/
import proofs.«173808_j83949430767982_2_alg».proof.Proof.Gen.ReferenceIdeal.Read
import proofs.«173808_j83949430767982_2_alg».proof.Proof.Spec

noncomputable section

open scoped BigOperators

namespace Cert.RefSpec

open Cert.ReferenceIdeal Cert.ReferenceIdeal.Gen Cert.ReferenceIdeal.Read Idealize.ShloMosaic Idealize.ShloMosaic.ValueIdx

/-- An array of the shape of x_real, x_imag and the result. -/
abbrev XT : Type := (⟨S4x4096x1024, .f32⟩ : BufTy).Contents (Elt Ideal)
/-- A weight matrix. -/
abbrev WT : Type := (⟨S1024x1024, .f32⟩ : BufTy).Contents (Elt Ideal)

/-! ### Where each product reads its operands

At the index (b, n, d) a product of rows with weights reads row (b, n) at column k and the weights at (k, d); the
product over the sequence reads both operands in batch b at row k; the last product reads the gate at (b, n, k) and the
reduced matrix at (b, k, e). -/

theorem lidx_v0 (b : Fin 4) (n : Fin 4096) (d k : Fin 1024) : lidx_main_v0 (ix3 b n d) k = ix3 b n k :=
  funext fun a => by match a with | ⟨0, _⟩ => rfl | ⟨1, _⟩ => rfl | ⟨2, _⟩ => rfl
theorem ridx_v0 (b : Fin 4) (n : Fin 4096) (d k : Fin 1024) : ridx_main_v0 (ix3 b n d) k = ix2 k d :=
  funext fun a => by match a with | ⟨0, _⟩ => rfl | ⟨1, _⟩ => rfl
theorem lidx_v1 (b : Fin 4) (n : Fin 4096) (d k : Fin 1024) : lidx_main_v1 (ix3 b n d) k = ix3 b n k :=
  funext fun a => by match a with | ⟨0, _⟩ => rfl | ⟨1, _⟩ => rfl | ⟨2, _⟩ => rfl
theorem ridx_v1 (b : Fin 4) (n : Fin 4096) (d k : Fin 1024) : ridx_main_v1 (ix3 b n d) k = ix2 k d :=
  funext fun a => by match a with | ⟨0, _⟩ => rfl | ⟨1, _⟩ => rfl
theorem lidx_v3 (b : Fin 4) (n : Fin 4096) (d k : Fin 1024) : lidx_main_v3 (ix3 b n d) k = ix3 b n k :=
  funext fun a => by match a with | ⟨0, _⟩ => rfl | ⟨1, _⟩ => rfl | ⟨2, _⟩ => rfl
theorem ridx_v3 (b : Fin 4) (n : Fin 4096) (d k : Fin 1024) : ridx_main_v3 (ix3 b n d) k = ix2 k d :=
  funext fun a => by match a with | ⟨0, _⟩ => rfl | ⟨1, _⟩ => rfl
theorem lidx_v4 (b : Fin 4) (n : Fin 4096) (d k : Fin 1024) : lidx_main_v4 (ix3 b n d) k = ix3 b n k :=
  funext fun a => by match a with | ⟨0, _⟩ => rfl | ⟨1, _⟩ => rfl | ⟨2, _⟩ => rfl
theorem ridx_v4 (b : Fin 4) (n : Fin 4096) (d k : Fin 1024) : ridx_main_v4 (ix3 b n d) k = ix2 k d :=
  funext fun a => by match a with | ⟨0, _⟩ => rfl | ⟨1, _⟩ => rfl
theorem lidx_v5 (b : Fin 4) (d e : Fin 1024) (k : Fin 4096) : lidx_main_v5 (ix3 b d e) k = ix3 b k d :=
  funext fun a => by match a with | ⟨0, _⟩ => rfl | ⟨1, _⟩ => rfl | ⟨2, _⟩ => rfl
theorem ridx_v5 (b : Fin 4) (d e : Fin 1024) (k : Fin 4096) : ridx_main_v5 (ix3 b d e) k = ix3 b k e :=
  funext fun a => by match a with | ⟨0, _⟩ => rfl | ⟨1, _⟩ => rfl | ⟨2, _⟩ => rfl
theorem lidx_v6 (b : Fin 4) (n : Fin 4096) (e k : Fin 1024) : lidx_main_v6 (ix3 b n e) k = ix3 b n k :=
  funext fun a => by match a with | ⟨0, _⟩ => rfl | ⟨1, _⟩ => rfl | ⟨2, _⟩ => rfl
theorem ridx_v6 (b : Fin 4) (n : Fin 4096) (e k : Fin 1024) : ridx_main_v6 (ix3 b n e) k = ix3 b k e :=
  funext fun a => by match a with | ⟨0, _⟩ => rfl | ⟨1, _⟩ => rfl | ⟨2, _⟩ => rfl

/-! ### The stages at coordinates -/

/-- x_real times the real query weights. -/
theorem v0_ix3 (x0 : XT) (x2 : WT) (b : Fin 4) (n : Fin 4096) (d : Fin 1024) :
    val_main_v0 (F := Ideal) x0 x2 (ix3 b n d) = Cert.Spec.proj x0 x2 b n d := by
  rw [val_main_v0_apply]
  unfold Cert.Spec.proj
  exact Finset.sum_congr rfl fun k _ => by rw [lidx_v0, ridx_v0]

/-- x_imag times the imaginary query weights. -/
theorem v1_ix3 (x1 : XT) (x3 : WT) (b : Fin 4) (n : Fin 4096) (d : Fin 1024) :
    val_main_v1 (F := Ideal) x1 x3 (ix3 b n d) = Cert.Spec.proj x1 x3 b n d := by
  rw [val_main_v1_apply]
  unfold Cert.Spec.proj
  exact Finset.sum_congr rfl fun k _ => by rw [lidx_v1, ridx_v1]

/-- x_real times the key weights. -/
theorem v3_ix3 (x0 : XT) (x4 : WT) (b : Fin 4) (n : Fin 4096) (d : Fin 1024) :
    val_main_v3 (F := Ideal) x0 x4 (ix3 b n d) = Cert.Spec.proj x0 x4 b n d := by
  rw [val_main_v3_apply]
  unfold Cert.Spec.proj
  exact Finset.sum_congr rfl fun k _ => by rw [lidx_v3, ridx_v3]

/-- x_imag times the value weights. -/
theorem v4_ix3 (x1 : XT) (x5 : WT) (b : Fin 4) (n : Fin 4096) (e : Fin 1024) :
    val_main_v4 (F := Ideal) x1 x5 (ix3 b n e) = Cert.Spec.proj x1 x5 b n e := by
  rw [val_main_v4_apply]
  unfold Cert.Spec.proj
  exact Finset.sum_congr rfl fun k _ => by rw [lidx_v4, ridx_v4]

/-- The gate: the pointwise product of the two query projections. -/
theorem v2_ix3 (x0 x1 : XT) (x2 x3 : WT) (b : Fin 4) (n : Fin 4096) (d : Fin 1024) :
    val_main_v2 (F := Ideal) x0 x1 x2 x3 (ix3 b n d) = Cert.Spec.query x0 x1 x2 x3 b n d := by
  rw [val_main_v2_apply, v0_ix3, v1_ix3]
  rfl

/-- The key-value product of a batch, summed over the whole sequence. -/
theorem v5_ix3 (x0 x1 : XT) (x4 x5 : WT) (b : Fin 4) (d e : Fin 1024) :
    val_main_v5 (F := Ideal) x0 x1 x4 x5 (ix3 b d e) = Cert.Spec.kv x0 x1 x4 x5 b d e := by
  rw [val_main_v5_apply]
  unfold Cert.Spec.kv
  exact Finset.sum_congr rfl fun k _ => by rw [lidx_v5, ridx_v5, v3_ix3, v4_ix3]

/-- The result: the gate times the key-value product, summed over the 1024 rows of the latter. -/
theorem v6_ix3 (x0 x1 : XT) (x2 x3 x4 x5 : WT) (b : Fin 4) (n : Fin 4096) (e : Fin 1024) :
    val_main_v6 (F := Ideal) x0 x1 x2 x3 x4 x5 (ix3 b n e) = Cert.Spec.Gc x0 x1 x2 x3 x4 x5 b n e := by
  rw [val_main_v6_apply]
  unfold Cert.Spec.Gc
  exact Finset.sum_congr rfl fun k _ => by rw [lidx_v6, ridx_v6, v2_ix3, v5_ix3]

/-! ### The reference is the specification -/

/-- The last stage of the reference, as a function of the six arguments, is the specification. -/
theorem ref_eq (x0 x1 : (⟨S4x4096x1024, .f32⟩ : BufTy).Contents (Elt Ideal))
    (x2 x3 x4 x5 : (⟨S1024x1024, .f32⟩ : BufTy).Contents (Elt Ideal)) :
    val_main_v6 (F := Ideal) x0 x1 x2 x3 x4 x5 = Cert.Spec.G x0 x1 x2 x3 x4 x5 := by
  funext i
  obtain ⟨b, n, e, rfl⟩ : ∃ (b : Fin 4) (n : Fin 4096) (e : Fin 1024), i = ix3 b n e := ⟨i 0, i 1, i 2, eq_ix3 i⟩
  rw [v6_ix3, Cert.Spec.G_ix3]

/-- The term the reference's run states for its result, written with the operations themselves, is the specification. -/
theorem run_term_eq (x0 x1 : (⟨S4x4096x1024, .f32⟩ : BufTy).Contents (Elt Ideal))
    (x2 x3 x4 x5 : (⟨S1024x1024, .f32⟩ : BufTy).Contents (Elt Ideal)) :
    Host.dotGeneral (F := Ideal) (φ₁ := .f32) (φ₂ := .f32) dot_S4x4096x1024_S4x1024x1024_S4x4096x1024_2_1_1_2_0_0 none
        (mulf (Host.dotGeneral (F := Ideal) (φ₁ := .f32) (φ₂ := .f32) dot_S4x4096x1024_S1024x1024_S4x4096x1024_2_0_01_1_n_n none x0 x2)
              (Host.dotGeneral (F := Ideal) (φ₁ := .f32) (φ₂ := .f32) dot_S4x4096x1024_S1024x1024_S4x4096x1024_2_0_01_1_n_n none x1 x3))
        (Host.dotGeneral (F := Ideal) (φ₁ := .f32) (φ₂ := .f32) dot_S4x4096x1024_S4x4096x1024_S4x1024x1024_1_1_2_2_0_0 none
              (Host.dotGeneral (F := Ideal) (φ₁ := .f32) (φ₂ := .f32) dot_S4x4096x1024_S1024x1024_S4x4096x1024_2_0_01_1_n_n none x0 x4)
              (Host.dotGeneral (F := Ideal) (φ₁ := .f32) (φ₂ := .f32) dot_S4x4096x1024_S1024x1024_S4x4096x1024_2_0_01_1_n_n none x1 x5))
      = Cert.Spec.G x0 x1 x2 x3 x4 x5 :=
  (val_main_v6_eq (F := Ideal) x0 x1 x2 x3 x4 x5).trans (ref_eq x0 x1 x2 x3 x4 x5)

end Cert.RefSpec

end
-- ==== Proof.lean ====
/-
  The five claims of this certificate.

  Both programs compute, for x_real, x_imag of shape [4, 4096, 1024] and four weight matrices of shape
  [1024, 1024], the array whose entry (b, n, e) is
      Σ_d (Σ_k x_real(b,n,k)·w_query_real(k,d)) · (Σ_k x_imag(b,n,k)·w_query_imag(k,d))
            · Σ_n' (Σ_k x_real(b,n',k)·w_key(k,d)) · (Σ_k x_imag(b,n',k)·w_value(k,e)).
  The kernel program does it in two regions over a host stretch that rounds the weights: the first region
  walks each batch in sixteen tiles of 256 rows, storing each tile's gate block and adding each tile's key-value
  product into an accumulator it set to zero on the batch's first tile, and writes the accumulator out on the
  last tile; the second region multiplies the gate array by the key-value array, batch by batch. At the exact
  instance rounding is the identity, and the sum over the sequence taken tile by tile from zero is the sum over the
  sequence, addition on the extended reals being commutative and associative also at the infinities: no
  finiteness is used, and the precondition is never opened.

  The frames: each program runs to the end without a fault and leaves its arguments as launched. For the two
  kernel programs this is read off the run of the program as three segments (host stretch, region, region); for
  the reference off its run with the result dropped. The idealization rewrote no operation, so there is nothing
  to preserve beyond the program's own text read at the exact instance.
-/
import proofs.«173808_j83949430767982_2_alg».proof.Defs
import proofs.«173808_j83949430767982_2_alg».proof.Proof.Gen.Kernel
import proofs.«173808_j83949430767982_2_alg».proof.Proof.Gen.KernelIdeal
import proofs.«173808_j83949430767982_2_alg».proof.Proof.Gen.ReferenceIdeal
import proofs.«173808_j83949430767982_2_alg».proof.Proof.Gen.Pre_finite_inputs
import proofs.«173808_j83949430767982_2_alg».proof.Proof.K.Run
import proofs.«173808_j83949430767982_2_alg».proof.Proof.KI.Bridge
import proofs.«173808_j83949430767982_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Hand.frame m ρ

/-- So does its reading at the exact instance. -/
theorem frame_ki : Cert.frame_KernelIdeal := fun m ρ _ => Cert.KernelIdeal.Hand.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the specification of the arguments in their
    result buffers, and with the arguments as launched. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun _ h c => ?_) (Cert.KernelIdeal.Hand.run_all m ρ)
    exact ⟨(h c _ (Cert.KernelIdeal.Hand.mem_uc Cert.KernelIdeal.main_v5 (by decide))).trans (Cert.KernelIdeal.Hand.result_eq m c),
      (h c _ (Cert.KernelIdeal.Hand.mem_uc Cert.KernelIdeal.main_arg0 (by decide))).trans (Cert.KernelIdeal.Hand.W3_main_arg0 m c),
      (h c _ (Cert.KernelIdeal.Hand.mem_uc Cert.KernelIdeal.main_arg1 (by decide))).trans (Cert.KernelIdeal.Hand.W3_main_arg1 m c),
      (h c _ (Cert.KernelIdeal.Hand.mem_uc Cert.KernelIdeal.main_arg2 (by decide))).trans (Cert.KernelIdeal.Hand.W3_main_arg2 m c),
      (h c _ (Cert.KernelIdeal.Hand.mem_uc Cert.KernelIdeal.main_arg3 (by decide))).trans (Cert.KernelIdeal.Hand.W3_main_arg3 m c),
      (h c _ (Cert.KernelIdeal.Hand.mem_uc Cert.KernelIdeal.main_arg4 (by decide))).trans (Cert.KernelIdeal.Hand.W3_main_arg4 m c),
      (h c _ (Cert.KernelIdeal.Hand.mem_uc Cert.KernelIdeal.main_arg5 (by decide))).trans (Cert.KernelIdeal.Hand.W3_main_arg5 m c)⟩
  · refine (θ_run Cert.ReferenceIdeal.defs _ _).mono (fun _ h c => ⟨?_, (h c).2⟩) (Cert.ReferenceIdeal.Value.run (F := Ideal) m' ρ')
    rw [(h c).1, Cert.RefSpec.run_term_eq, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
